-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x2048 : Shape := ⟨3, ![4, 2048, 2048]⟩
abbrev S8x64x512 : Shape := ⟨3, ![8, 64, 512]⟩
abbrev S8x64 : Shape := ⟨2, ![8, 64]⟩
abbrev S64x512 : Shape := ⟨2, ![64, 512]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S8x64 : S_.BroadcastsInDim S8x64 (![] : Fin 0 → Fin S8x64.rank)
  reducesTo_S8x64_S_d0_1 : S8x64.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S64x512 .f32) (main_arg9 : FVec F S64 .f32) (main_arg10 : FVec F S512x64 .f32) (main_arg11 : FVec F S512 .f32) (main_v33 : IVec S_ 1) : IVec S_ 1 :=
  let main_v34 : FVec F S64x512 .f32 := Host.absf main_arg8
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S512x64 .f32 := Host.absf main_arg10
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S8x64 .f32) (main_arg6 : FVec F S8x64x512 .f32) (main_arg7 : FVec F S8x64 .f32) (main_arg8 : FVec F S64x512 .f32) (main_arg9 : FVec F S64 .f32) (main_arg10 : FVec F S512x64 .f32) (main_arg11 : FVec F S512 .f32) (main_v13 : IVec S_ 1) (main_v16 : IVec S8x64x512 1) : IVec S_ 1 :=
  let main_c_5 : IVec S_ 1 := constantI S_ 1 1#1
  let main_v17 : IVec S_ 1 := (fun x v => Host.reduce IntOp.andi x v reducesTo_S8x64x512_S_d0_1_2 h_S_) main_v16 main_c_5
  let main_v18 : IVec S_ 1 := andi main_v13 main_v17
  let main_v19 : FVec F S8x64 .f32 := Host.absf main_arg5
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S8x64x512 .f32 := Host.absf main_arg6
  let main_cst_8 : FVec F S_ .f32 := constant S_ .f32 0x7F800000#32
  let main_v25 : FVec F S8x64x512 .f32 := broadcastInDim S8x64x512 ![] bcast_S_S8x64x512 main_cst_8
  let main_v26 : IVec S8x64x512 1 := cmpf .olt main_v24 main_v25
  let main_c_9 : IVec S_ 1 := constantI S_ 1 1#1
  let main_v27 : IVec S_ 1 := (fun x v => Host.reduce IntOp.andi x v reducesTo_S8x64x512_S_d0_1_2 h_S_) main_v26 main_c_9
  let main_v28 : IVec S_ 1 := andi main_v23 main_v27
  let main_v29 : FVec F S8x64 .f32 := Host.absf main_arg7
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S4x2048x512 .f32) (main_arg1 : FVec F S4x2048x512 .f32) (main_arg2 : FVec F S4x2048x512 .f32) (main_arg3 : IVec S4x2048x2048 32) (main_arg4 : FVec F S8x64x512 .f32) (main_arg5 : FVec F S8x64 .f32) (main_arg6 : FVec F S8x64x512 .f32) (main_arg7 : FVec F S8x64 .f32) (main_arg8 : FVec F S64x512 .f32) (main_arg9 : FVec F S64 .f32) (main_arg10 : FVec F S512x64 .f32) (main_arg11 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S8x64x512 .f32 := Host.absf main_arg4
  let main_cst_4 : FVec F S_ .f32 := constant S_ .f32 0x7F800000#32
  let main_v15 : FVec F S8x64x512 .f32 := broadcastInDim S8x64x512 ![] bcast_S_S8x64x512 main_cst_4
  let main_v16 : IVec S8x64x512 1 := cmpf .olt main_v14 main_v15
  fn_part1 (F := F) main_arg5 main_arg6 main_arg7 main_arg8 main_arg9 main_arg10 main_arg11 main_v13 main_v16
-- ==== Kernel.lean ====
abbrev S4x2048x512 : Shape := ⟨3, ![4, 2048, 512]⟩
abbrev S4x2048x2048 : Shape := ⟨3, ![4, 2048, 2048]⟩
abbrev S8x64x512 : Shape := ⟨3, ![8, 64, 512]⟩
abbrev S8x64 : Shape := ⟨2, ![8, 64]⟩
abbrev S64x512 : Shape := ⟨2, ![64, 512]⟩
abbrev S64 : Shape := ⟨1, ![64]⟩
abbrev S512x64 : Shape := ⟨2, ![512, 64]⟩
abbrev S512 : Shape := ⟨1, ![512]⟩
abbrev S1x256x512 : Shape := ⟨3, ![1, 256, 512]⟩
abbrev S1x2048x512 : Shape := ⟨3, ![1, 2048, 512]⟩
abbrev S1x256x2048 : Shape := ⟨3, ![1, 256, 2048]⟩
abbrev S8x2048x64 : Shape := ⟨3, ![8, 2048, 64]⟩
abbrev S2048x64 : Shape := ⟨2, ![2048, 64]⟩
abbrev S2048x512 : Shape := ⟨2, ![2048, 512]⟩
abbrev S1x64 : Shape := ⟨2, ![1, 64]⟩
abbrev S1x64x512 : Shape := ⟨3, ![1, 64, 512]⟩
abbrev S1x2048x64 : Shape := ⟨3, ![1, 2048, 64]⟩
abbrev S256x512 : Shape := ⟨2, ![256, 512]⟩
abbrev S256x2048 : Shape := ⟨2, ![256, 2048]⟩
abbrev S256x64 : Shape := ⟨2, ![256, 64]⟩
abbrev S64x2048 : Shape := ⟨2, ![64, 2048]⟩
abbrev S256 : Shape := ⟨1, ![256]⟩
abbrev S256x1 : Shape := ⟨2, ![256, 1]⟩
abbrev S1x512 : Shape := ⟨2, ![1, 512]⟩

abbrev nBuf : Space → Nat
  | .hbm => 14
  | .vmem => 22
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x2048, .i32⟩
  | .hbm, ⟨4, _⟩ => ⟨S8x64x512, .f32⟩
  | .hbm, ⟨5, _⟩ => ⟨S8x64, .f32⟩
  | .hbm, ⟨6, _⟩ => ⟨S8x64x512, .f32⟩
  | .hbm, ⟨7, _⟩ => ⟨S8x64, .f32⟩
  | .hbm, ⟨8, _⟩ => ⟨S64x512, .f32⟩
  | .hbm, ⟨9, _⟩ => ⟨S64, .f32⟩
  | .hbm, ⟨10, _⟩ => ⟨S512x64, .f32⟩
  | .hbm, ⟨11, _⟩ => ⟨S512, .f32⟩
  | .hbm, ⟨12, _⟩ => ⟨S4x2048x512, .f32⟩
  | .hbm, ⟨13, _⟩ => ⟨S4x2048x2048, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x256x2048, .i32⟩
  | .local _ .vmem, ⟨7, _⟩ => ⟨S1x256x2048, .i32⟩
  | .local _ .vmem, ⟨8, _⟩ => ⟨S8x64x512, .f32⟩
  | .local _ .vmem, ⟨9, _⟩ => ⟨S8x64, .f32⟩
  | .local _ .vmem, ⟨10, _⟩ => ⟨S8x64x512, .f32⟩
  | .local _ .vmem, ⟨11, _⟩ => ⟨S8x64, .f32⟩
  | .local _ .vmem, ⟨12, _⟩ => ⟨S64x512, .f32⟩
  | .local _ .vmem, ⟨13, _⟩ => ⟨S64, .f32⟩
  | .local _ .vmem, ⟨14, _⟩ => ⟨S512x64, .f32⟩
  | .local _ .vmem, ⟨15, _⟩ => ⟨S512, .f32⟩
  | .local _ .vmem, ⟨16, _⟩ => ⟨S1x256x512, .f32⟩
  | .local _ .vmem, ⟨17, _⟩ => ⟨S1x256x512, .f32⟩
  | .local _ .vmem, ⟨18, _⟩ => ⟨S1x256x2048, .f32⟩
  | .local _ .vmem, ⟨19, _⟩ => ⟨S1x256x2048, .f32⟩
  | .local _ .vmem, ⟨20, _⟩ => ⟨S8x2048x64, .bf16⟩
  | .local _ .vmem, ⟨21, _⟩ => ⟨S2048x64, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S8x64x512_S1x64x512_0_0_0 : ∀ a, (![0, 0, 0] : Fin 3 → Nat) a + S1x64x512.size a ≤ S8x64x512.size a
  h_S1x64x512 : 0 < S1x64x512.numel
  shapeCasts_S1x64x512_S64x512 : S1x64x512.ShapeCasts S64x512
  inb_S8x64_S1x64_0_0 : ∀ a, (![0, 0] : Fin 2 → Nat) a + S1x64.size a ≤ S8x64.size a
  h_S1x64 : 0 < S1x64.numel
  shapeCasts_S1x64_S64 : S1x64.ShapeCasts S64
  inb_S8x2048x64_S1x2048x64_0_0_0 : ∀ a, (![0, 0, 0] : Fin 3 → Nat) a + S1x2048x64.size a ≤ S8x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S8x2048x64_S1x2048x64_0_0_0 : (Rect.unit (s := S8x2048x64) ![0, 0, 0] S1x2048x64.size inb_S8x2048x64_S1x2048x64_0_0_0).PackedRows (EltTy.packing .bf16)
  inb_S8x64x512_S1x64x512_1_0_0 : ∀ a, (![1, 0, 0] : Fin 3 → Nat) a + S1x64x512.size a ≤ S8x64x512.size a
  inb_S8x64_S1x64_1_0 : ∀ a, (![1, 0] : Fin 2 → Nat) a + S1x64.size a ≤ S8x64.size a
  inb_S8x2048x64_S1x2048x64_1_0_0 : ∀ a, (![1, 0, 0] : Fin 3 → Nat) a + S1x2048x64.size a ≤ S8x2048x64.size a
  packedbf16_S8x2048x64_S1x2048x64_1_0_0 : (Rect.unit (s := S8x2048x64) ![1, 0, 0] S1x2048x64.size inb_S8x2048x64_S1x2048x64_1_0_0).PackedRows (EltTy.packing .bf16)
  inb_S8x64x512_S1x64x512_2_0_0 : ∀ a, (![2, 0, 0] : Fin 3 → Nat) a + S1x64x512.size a ≤ S8x64x512.size a
  inb_S8x64_S1x64_2_0 : ∀ a, (![2, 0] : Fin 2 → Nat) a + S1x64.size a ≤ S8x64.size a
  inb_S8x2048x64_S1x2048x64_2_0_0 : ∀ a, (![2, 0, 0] : Fin 3 → Nat) a + S1x2048x64.size a ≤ S8x2048x64.size a
  packedbf16_S8x2048x64_S1x2048x64_2_0_0 : (Rect.unit (s := S8x2048x64) ![2, 0, 0] S1x2048x64.size inb_S8x2048x64_S1x2048x64_2_0_0).PackedRows (EltTy.packing .bf16)
  inb_S8x64x512_S1x64x512_3_0_0 : ∀ a, (![3, 0, 0] : Fin 3 → Nat) a + S1x64x512.size a ≤ S8x64x512.size a
  inb_S8x64_S1x64_3_0 : ∀ a, (![3, 0] : Fin 2 → Nat) a + S1x64.size a ≤ S8x64.size a
  inb_S8x2048x64_S1x2048x64_3_0_0 : ∀ a, (![3, 0, 0] : Fin 3 → Nat) a + S1x2048x64.size a ≤ S8x2048x64.size a
  packedbf16_S8x2048x64_S1x2048x64_3_0_0 : (Rect.unit (s := S8x2048x64) ![3, 0, 0] S1x2048x64.size inb_S8x2048x64_S1x2048x64_3_0_0).PackedRows (EltTy.packing .bf16)
  inb_S8x64x512_S1x64x512_4_0_0 : ∀ a, (![4, 0, 0] : Fin 3 → Nat) a + S1x64x512.size a ≤ S8x64x512.size a
  inb_S8x64_S1x64_4_0 : ∀ a, (![4, 0] : Fin 2 → Nat) a + S1x64.size a ≤ S8x64.size a
  inb_S8x2048x64_S1x2048x64_4_0_0 : ∀ a, (![4, 0, 0] : Fin 3 → Nat) a + S1x2048x64.size a ≤ S8x2048x64.size a
  packedbf16_S8x2048x64_S1x2048x64_4_0_0 : (Rect.unit (s := S8x2048x64) ![4, 0, 0] S1x2048x64.size inb_S8x2048x64_S1x2048x64_4_0_0).PackedRows (EltTy.packing .bf16)
  inb_S8x64x512_S1x64x512_5_0_0 : ∀ a, (![5, 0, 0] : Fin 3 → Nat) a + S1x64x512.size a ≤ S8x64x512.size a
  inb_S8x64_S1x64_5_0 : ∀ a, (![5, 0] : Fin 2 → Nat) a + S1x64.size a ≤ S8x64.size a
  inb_S8x2048x64_S1x2048x64_5_0_0 : ∀ a, (![5, 0, 0] : Fin 3 → Nat) a + S1x2048x64.size a ≤ S8x2048x64.size a
  packedbf16_S8x2048x64_S1x2048x64_5_0_0 : (Rect.unit (s := S8x2048x64) ![5, 0, 0] S1x2048x64.size inb_S8x2048x64_S1x2048x64_5_0_0).PackedRows (EltTy.packing .bf16)
  inb_S8x64x512_S1x64x512_6_0_0 : ∀ a, (![6, 0, 0] : Fin 3 → Nat) a + S1x64x512.size a ≤ S8x64x512.size a
  inb_S8x64_S1x64_6_0 : ∀ a, (![6, 0] : Fin 2 → Nat) a + S1x64.size a ≤ S8x64.size a
  inb_S8x2048x64_S1x2048x64_6_0_0 : ∀ a, (![6, 0, 0] : Fin 3 → Nat) a + S1x2048x64.size a ≤ S8x2048x64.size a
  packedbf16_S8x2048x64_S1x2048x64_6_0_0 : (Rect.unit (s := S8x2048x64) ![6, 0, 0] S1x2048x64.size inb_S8x2048x64_S1x2048x64_6_0_0).PackedRows (EltTy.packing .bf16)
  inb_S8x64x512_S1x64x512_7_0_0 : ∀ a, (![7, 0, 0] : Fin 3 → Nat) a + S1x64x512.size a ≤ S8x64x512.size a
  inb_S8x64_S1x64_7_0 : ∀ a, (![7, 0] : Fin 2 → Nat) a + S1x64.size a ≤ S8x64.size a
  inb_S8x2048x64_S1x2048x64_7_0_0 : ∀ a, (![7, 0, 0] : Fin 3 → Nat) a + S1x2048x64.size a ≤ S8x2048x64.size a
  packedbf16_S8x2048x64_S1x2048x64_7_0_0 : (Rect.unit (s := S8x2048x64) ![7, 0, 0] S1x2048x64.size inb_S8x2048x64_S1x2048x64_7_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  broadcasts_S1x64_S256x64 : S1x64.Broadcasts S256x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  inb_S512x64_S512x64_0_0 : ∀ a, (![0, 0] : Fin 2 → Nat) a + S512x64.size a ≤ S512x64.size a
  h_S512x64 : 0 < S512x64.numel
  transposes_S512x64_p1_0_S64x512 : S512x64.Transposes [1, 0] S64x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  shapeCasts_S256x512_S1x256x512 : S256x512.ShapeCasts S1x256x512
  dot_S2048x512_S512x64_S2048x64_1_0_0_1_n_n_wf : DotDims.WF S2048x512 S512x64 S2048x64 [1] [0] [0] [1] [] []
  dot_S256x512_S512x64_S256x64_1_0_0_1_n_n_wf : DotDims.WF S256x512 S512x64 S256x64 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x64_S64x512_S256x512_1_0_0_1_n_n_wf : DotDims.WF S256x64 S64x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x2048x512.size a
  hwx0_0 : ∀ i : grid0.Coords, EltTy.bits .f32 = 32 ∨ (Rect.block (s := S4x2048x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S4x2048x512.size a
  hwx0_1 : ∀ i : grid0.Coords, EltTy.bits .f32 = 32 ∨ (Rect.block (s := S4x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S4x2048x512.size a
  hwx0_2 : ∀ i : grid0.Coords, EltTy.bits .f32 = 32 ∨ (Rect.block (s := S4x2048x512) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .i32 = 32 ∨ (Rect.block (s := S4x2048x2048) S1x256x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64x512.size a ≤ S8x64x512.size a
  hwx0_4 : ∀ i : grid0.Coords, EltTy.bits .f32 = 32 ∨ (Rect.block (s := S8x64x512) S8x64x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x64x512.size a ≤ S8x64x512.size a
  hwx0_6 : ∀ i : grid0.Coords, EltTy.bits .f32 = 32 ∨ (Rect.block (s := S8x64x512) S8x64x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S8x64.size a
  hwx0_7 : ∀ i : grid0.Coords, EltTy.bits .f32 = 32 ∨ (Rect.block (s := S8x64) S8x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x512.size a ≤ S64x512.size a
  hwx0_8 : ∀ i : grid0.Coords, EltTy.bits .f32 = 32 ∨ (Rect.block (s := S64x512) S64x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S512x64.size a
  hwx0_10 : ∀ i : grid0.Coords, EltTy.bits .f32 = 32 ∨ (Rect.block (s := S512x64) S512x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x512.size a ≤ S4x2048x512.size a
  hwx0_12 : ∀ i : grid0.Coords, EltTy.bits .f32 = 32 ∨ (Rect.block (s := S4x2048x512) S1x256x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x2048.size a ≤ S4x2048x2048.size a
  hwx0_13 : ∀ i : grid0.Coords, EltTy.bits .f32 = 32 ∨ (Rect.block (s := S4x2048x2048) S1x256x2048.size (cc0_transform_13 i) (hinb0_13 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S1x256x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S1x256x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S4x2048x2048 : Shape := ⟨3, ![4, 2048, 2048]⟩
abbrev S8x64x512 : Shape := ⟨3, ![8, 64, 512]⟩
abbrev S8x64 : Shape := ⟨2, ![8, 64]⟩
abbrev S64x512 : Shape := ⟨2, ![64, 512]⟩
abbrev S64 : Shape := ⟨1, ![64]⟩
abbrev S512x64 : Shape := ⟨2, ![512, 64]⟩
abbrev S512 : Shape := ⟨1, ![512]⟩
abbrev S4x2048x64 : Shape := ⟨3, ![4, 2048, 64]⟩
abbrev S1x1x64 : Shape := ⟨3, ![1, 1, 64]⟩
abbrev S8x64x4x2048 : Shape := ⟨4, ![8, 64, 4, 2048]⟩
abbrev S4x8x2048x64 : Shape := ⟨4, ![4, 8, 2048, 64]⟩
abbrev S1x8x1x64 : Shape := ⟨4, ![1, 8, 1, 64]⟩
abbrev S4x8x2048x2048 : Shape := ⟨4, ![4, 8, 2048, 2048]⟩
abbrev S_ : Shape := ⟨0, ![]⟩
abbrev S4x1x2048x2048 : Shape := ⟨4, ![4, 1, 2048, 2048]⟩
abbrev S4x8x2048 : Shape := ⟨3, ![4, 8, 2048]⟩
abbrev S4x8x2048x1 : Shape := ⟨4, ![4, 8, 2048, 1]⟩
abbrev S1x1x512 : Shape := ⟨3, ![1, 1, 512]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x2048x2048, .i32⟩
  | .hbm, ⟨4, _⟩ => ⟨S8x64x512, .f32⟩
  | .hbm, ⟨5, _⟩ => ⟨S8x64, .f32⟩
  | .hbm, ⟨6, _⟩ => ⟨S8x64x512, .f32⟩
  | .hbm, ⟨7, _⟩ => ⟨S8x64, .f32⟩
  | .hbm, ⟨8, _⟩ => ⟨S64x512, .f32⟩
  | .hbm, ⟨9, _⟩ => ⟨S64, .f32⟩
  | .hbm, ⟨10, _⟩ => ⟨S512x64, .f32⟩
  | .hbm, ⟨11, _⟩ => ⟨S512, .f32⟩
  | .hbm, ⟨12, _⟩ => ⟨S4x2048x64, .f32⟩
  | .hbm, ⟨13, _⟩ => ⟨S1x1x64, .f32⟩
  | .hbm, ⟨14, _⟩ => ⟨S4x2048x64, .f32⟩
  | .hbm, ⟨15, _⟩ => ⟨S4x2048x64, .f32⟩
  | .hbm, ⟨16, _⟩ => ⟨S8x64x4x2048, .f32⟩
  | .hbm, ⟨17, _⟩ => ⟨S4x8x2048x64, .f32⟩
  | .hbm, ⟨18, _⟩ => ⟨S1x8x1x64, .f32⟩
  | .hbm, ⟨19, _⟩ => ⟨S4x8x2048x64, .f32⟩
  | .hbm, ⟨20, _⟩ => ⟨S4x8x2048x64, .f32⟩
  | .hbm, ⟨21, _⟩ => ⟨S8x64x4x2048, .f32⟩
  | .hbm, ⟨22, _⟩ => ⟨S4x8x2048x64, .f32⟩
  | .hbm, ⟨23, _⟩ => ⟨S1x8x1x64, .f32⟩
  | .hbm, ⟨24, _⟩ => ⟨S4x8x2048x64, .f32⟩
  | .hbm, ⟨25, _⟩ => ⟨S4x8x2048x64, .f32⟩
  | .hbm, ⟨26, _⟩ => ⟨S4x8x2048x2048, .f32⟩
  | .hbm, ⟨27, _⟩ => ⟨S_, .f32⟩
  | .hbm, ⟨28, _⟩ => ⟨S4x8x2048x2048, .f32⟩
  | .hbm, ⟨29, _⟩ => ⟨S4x8x2048x2048, .f32⟩
  | .hbm, ⟨30, _⟩ => ⟨S4x1x2048x2048, .i32⟩
  | .hbm, ⟨31, _⟩ => ⟨S_, .i32⟩
  | .hbm, ⟨32, _⟩ => ⟨S4x1x2048x2048, .i32⟩
  | .hbm, ⟨33, _⟩ => ⟨S4x1x2048x2048, .i1⟩
  | .hbm, ⟨34, _⟩ => ⟨S_, .f32⟩
  | .hbm, ⟨35, _⟩ => ⟨S_, .f32⟩
  | .hbm, ⟨36, _⟩ => ⟨S4x8x2048x2048, .i1⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S_, .f32⟩
  | .hbm, ⟨42, _⟩ => ⟨S4x8x2048, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x2048x2048, .f32⟩
  | .hbm, ⟨48, _⟩ => ⟨S_, .f32⟩
  | .hbm, ⟨49, _⟩ => ⟨S4x8x2048, .f32⟩
  | .hbm, ⟨50, _⟩ => ⟨S4x8x2048x1, .f32⟩
  | .hbm, ⟨51, _⟩ => ⟨S4x8x2048x2048, .f32⟩
  | .hbm, ⟨52, _⟩ => ⟨S4x8x2048x2048, .f32⟩
  | .hbm, ⟨53, _⟩ => ⟨S_, .f32⟩
  | .hbm, ⟨54, _⟩ => ⟨S4x2048x2048, .f32⟩
  | .hbm, ⟨55, _⟩ => ⟨S4x2048x64, .f32⟩
  | .hbm, ⟨56, _⟩ => ⟨S_, .f32⟩
  | .hbm, ⟨57, _⟩ => ⟨S4x2048x64, .f32⟩
  | .hbm, ⟨58, _⟩ => ⟨S4x2048x64, .f32⟩
  | .hbm, ⟨59, _⟩ => ⟨S4x2048x512, .f32⟩
  | .hbm, ⟨60, _⟩ => ⟨S1x1x512, .f32⟩
  | .hbm, ⟨61, _⟩ => ⟨S4x2048x512, .f32⟩
  | .hbm, ⟨62, _⟩ => ⟨S4x2048x512, .f32⟩
  | .hbm, ⟨63, _⟩ => ⟨S_, .f32⟩
  | .hbm, ⟨64, _⟩ => ⟨S4x2048x2048, .f32⟩
  | .hbm, ⟨65, _⟩ => ⟨S_, .f32⟩
  | .hbm, ⟨66, _⟩ => ⟨S4x2048x2048, .f32⟩
  | .hbm, ⟨67, _⟩ => ⟨S4x2048x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  transposes_S8x64x4x2048_S4x8x2048x64_2_0_3_1 : S8x64x4x2048.Transposes [2, 0, 3, 1] S4x8x2048x64
  bcast_S8x64_S1x8x1x64_1_3 : S8x64.BroadcastsInDim S1x8x1x64 (![1, 3] : Fin 2 → Fin S1x8x1x64.rank)
  bcast_S1x8x1x64_S4x8x2048x64_0_1_2_3 : S1x8x1x64.BroadcastsInDim S4x8x2048x64 (![0, 1, 2, 3] : Fin 4 → Fin S4x8x2048x64.rank)
  bcast_S_S4x8x2048x2048 : S_.BroadcastsInDim S4x8x2048x2048 (![] : Fin 0 → Fin S4x8x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  reducesTo_S4x8x2048x2048_S4x2048x2048_d1 : S4x8x2048x2048.ReducesTo [1] S4x2048x2048
  bcast_S_S4x2048x64 : S_.BroadcastsInDim S4x2048x64 (![] : Fin 0 → Fin S4x2048x64.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  bcast_S_S4x2048x2048 : S_.BroadcastsInDim S4x2048x2048 (![] : Fin 0 → Fin S4x2048x2048.rank)
  dot_S4x2048x512_S64x512_S4x2048x64_2_1_01_0_n_n_wf : DotDims.WF S4x2048x512 S64x512 S4x2048x64 [2] [1] [0, 1] [0] [] []
  dot_S8x64x512_S4x2048x512_S8x64x4x2048_2_2_01_01_n_n_wf : DotDims.WF S8x64x512 S4x2048x512 S8x64x4x2048 [2] [2] [0, 1] [0, 1] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x2048x2048_S4x2048x64_S4x2048x64_2_1_1_2_0_0_wf : DotDims.WF S4x2048x2048 S4x2048x64 S4x2048x64 [2] [1] [1] [2] [0] [0]
  dot_S4x2048x64_S512x64_S4x2048x512_2_1_01_0_n_n_wf : DotDims.WF S4x2048x64 S512x64 S4x2048x512 [2] [1] [0, 1] [0] [] []

variable [Facts₀]

def dot_S4x2048x512_S64x512_S4x2048x64_2_1_01_0_n_n : DotDims S4x2048x512 S64x512 S4x2048x64 where
  lhsContracting := [2]
  rhsContracting := [1]
  lhsNonContracting := [0, 1]
  rhsNonContracting := [0]
  lhsBatch := []
  rhsBatch := []
  wf := dot_S4x2048x512_S64x512_S4x2048x64_2_1_01_0_n_n_wf
def dot_S8x64x512_S4x2048x512_S8x64x4x2048_2_2_01_01_n_n : DotDims S8x64x512 S4x2048x512 S8x64x4x2048 where
  lhsContracting := [2]
  rhsContracting := [2]
  lhsNonContracting := [0, 1]
  rhsNonContracting := [0, 1]
  lhsBatch := []
  rhsBatch := []
  wf := dot_S8x64x512_S4x2048x512_S8x64x4x2048_2_2_01_01_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf
def dot_S4x2048x64_S512x64_S4x2048x512_2_1_01_0_n_n : DotDims S4x2048x64 S512x64 S4x2048x512 where
  lhsContracting := [2]
  rhsContracting := [1]
  lhsNonContracting := [0, 1]
  rhsNonContracting := [0]
  lhsBatch := []
  rhsBatch := []
  wf := dot_S4x2048x64_S512x64_S4x2048x512_2_1_01_0_n_n_wf

class Facts : Prop extends Facts₀ where

variable [Facts]
-- ==== Proof.AttnSpec.lean ====
/-
  The two results of the multi-head attention layer, as functions of the twelve argument arrays, one entry at a time,
  on the extended reals.  For a batch `b`, a head `h`, a query row `s` and a key row `t`:

    q[b,h,s,e] = Σ_d queries[b,s,d] · Wq[h,e,d] + bq[h,e]         k[b,h,t,e] = Σ_d keys[b,t,d] · Wk[h,e,d] + bk[h,e]
    v[b,t,e]   = Σ_d values[b,t,d] · Wv[e,d] + bv[e]
    score[b,h,s,t] = -1e9 where mask[b,s,t] = 0, else (Σ_e q[b,h,s,e] · k[b,h,t,e]) · (1/8)
    attn[b,h,s,·]  = softmax of score[b,h,s,·]  (shifted by the row's maximum)
    weights[b,s,t] = (Σ_h attn[b,h,s,t]) · (1/8)
    out[b,s,j]     = Σ_e ((Σ_t (Σ_h attn[b,h,s,t]) · v[b,t,e]) · (1/8)) · Wo[j,e] + bo[j]

  and the laws of the extended reals that relate this arrangement to others: a sum over the heads taken before or after
  the product with the values (it needs the weights to be nonnegative, since the extended reals distribute only over
  terms of one sign), and the nonnegativity of a softmax row whose scores are real numbers.
-/
import Idealize.ShloMosaic.PureOps.Ideal
import Idealize.ShloMosaic.Lib.ValueIdx

noncomputable section

open scoped BigOperators

namespace Cert.Attn

open Idealize.ShloMosaic Idealize.ShloMosaic.ValueIdx

/-- The value written where the mask is zero: the float `-1e9`. -/
def NEG : EReal := Ideal.ofBits .f32 0xCE6E6B28#32

/-- One eighth: the score scale `1/√64` and the mean over the eight heads. -/
def eighth : EReal := ((1 / 8 : ℝ) : EReal)

/-- Row `s` of `X` against row `e` of `W`, plus the bias at `e`. -/
def proj {n : ℕ} (X : Fin n → Fin 512 → EReal) (W : Fin 64 → Fin 512 → EReal) (bb : Fin 64 → EReal)
    (s : Fin n) (e : Fin 64) : EReal :=
  (∑ d : Fin 512, X s d * W e d) + bb e

/-- The largest entry of a row (`⊥` for an empty one). -/
def rowMax {n : ℕ} (s : Fin n → EReal) : EReal := (Finset.univ : Finset (Fin n)).fold max ⊥ s

/-- The softmax of a row, shifted by its maximum. -/
def softmax {n : ℕ} (s : Fin n → EReal) (t : Fin n) : EReal :=
  Ideal.div (Ideal.exp (s t - rowMax s)) (∑ u : Fin n, Ideal.exp (s u - rowMax s))

/-- An extended real that is a real number (neither infinity). -/
def IsReal (x : EReal) : Prop := ∃ r : ℝ, x = (r : EReal)

/-- A score under the mask: `-1e9` where the mask word is zero. -/
def masked (mk : BitVec 32) (x : EReal) : EReal := Scalar.select (IntOp.cmpi .eq mk 0#32) NEG x

section Arrays

variable (Q Kx Vx : (⟨3, ![4, 2048, 512]⟩ : Shape).Idx → EReal) (M : (⟨3, ![4, 2048, 2048]⟩ : Shape).Idx → BitVec 32)
  (Wq : (⟨3, ![8, 64, 512]⟩ : Shape).Idx → EReal) (bq : (⟨2, ![8, 64]⟩ : Shape).Idx → EReal)
  (Wk : (⟨3, ![8, 64, 512]⟩ : Shape).Idx → EReal) (bk : (⟨2, ![8, 64]⟩ : Shape).Idx → EReal)
  (Wv : (⟨2, ![64, 512]⟩ : Shape).Idx → EReal) (bv : (⟨1, ![64]⟩ : Shape).Idx → EReal)
  (Wo : (⟨2, ![512, 64]⟩ : Shape).Idx → EReal) (bo : (⟨1, ![512]⟩ : Shape).Idx → EReal)

/-- The projected queries (or keys) of batch `b`, head `h`. -/
def headProj (X : (⟨3, ![4, 2048, 512]⟩ : Shape).Idx → EReal) (W : (⟨3, ![8, 64, 512]⟩ : Shape).Idx → EReal)
    (bb : (⟨2, ![8, 64]⟩ : Shape).Idx → EReal) (b : Fin 4) (h : Fin 8) (s : Fin 2048) (e : Fin 64) : EReal :=
  proj (fun s d => X (ix3 b s d)) (fun e d => W (ix3 h e d)) (fun e => bb (ix2 h e)) s e

/-- The projected values of batch `b` (one projection shared by the heads). -/
def valProj (b : Fin 4) (t : Fin 2048) (e : Fin 64) : EReal :=
  proj (fun t d => Vx (ix3 b t d)) (fun e d => Wv (ix2 e d)) (fun e => bv (ix1 e)) t e

/-- The masked, scaled score of query row `s` against key row `t`. -/
def score (b : Fin 4) (h : Fin 8) (s t : Fin 2048) : EReal :=
  masked (M (ix3 b s t)) ((∑ e : Fin 64, headProj Q Wq bq b h s e * headProj Kx Wk bk b h t e) * eighth)

/-- The attention weights of one head. -/
def attn (b : Fin 4) (h : Fin 8) (s t : Fin 2048) : EReal :=
  softmax (fun t' => score Q Kx M Wq bq Wk bk b h s t') t

/-- THE SECOND RESULT: the attention weights averaged over the heads. -/
def attnMean (i : (⟨3, ![4, 2048, 2048]⟩ : Shape).Idx) : EReal :=
  (∑ h : Fin 8, attn Q Kx M Wq bq Wk bk (i 0) h (i 1) (i 2)) * eighth

/-- The head-averaged weighted values, before the output projection. -/
def mixed (b : Fin 4) (s : Fin 2048) (e : Fin 64) : EReal :=
  (∑ t : Fin 2048, (∑ h : Fin 8, attn Q Kx M Wq bq Wk bk b h s t) * valProj Vx Wv bv b t e) * eighth

/-- THE FIRST RESULT: the output projection of the head-averaged weighted values. -/
def outProj (i : (⟨3, ![4, 2048, 512]⟩ : Shape).Idx) : EReal :=
  (∑ e : Fin 64, mixed Q Kx Vx M Wq bq Wk bk Wv bv (i 0) (i 1) e * Wo (ix2 (i 2) e)) + bo (ix1 (i 2))

end Arrays

end Cert.Attn

end
-- ==== Proof.FiniteInputs.lean ====
/-
  Finite inputs are real numbers.  The precondition takes, for each of the eleven float arrays, the conjunction over all
  entries of |x| < +∞, and joins the eleven with "and".  On the extended reals |x| = max x (-x), and max x (-x) < ⊤ rules
  out both x = ⊤ and x = ⊥: what is left is a real number.  So where the precondition holds every entry of every float
  array is a real number.
-/
import proofs.«150527_j89386859364957_1_alg».proof.Pre_finite_inputs
import proofs.«150527_j89386859364957_1_alg».proof.Proof.AttnSpec
import Idealize.ShloMosaic.Lib.ReduceAll
import Idealize.ShloMosaic.Lib.ValueIdx
import Idealize.ShloMosaic.PureOps.Ideal.Laws

noncomputable section

namespace Cert.Attn.Finite

open Idealize.ShloMosaic
open Cert.Pre_finite_inputs (S_ S4x2048x512 S4x2048x2048 S8x64x512 S8x64 S64x512 S64 S512x64 S512)

/-- The scalar shape has one index. -/
instance : Subsingleton S_.Idx := ⟨fun a b => funext fun d => d.elim0⟩

/-- The float pattern 0x7F800000 denotes the top of the extended reals. -/
theorem ofBits_inf : Ideal.ofBits .f32 0x7F800000#32 = (⊤ : EReal) := by
  simp [Ideal.ofBits, Ideal.ieee]

/-- An extended real whose absolute value max x (-x) is below the top is a real number. -/
theorem isReal_of_abs_lt_top (x : EReal) (h : max x (-x) < ⊤) : IsReal x := by
  induction x using EReal.rec with
  | bot => simp at h
  | top => simp at h
  | coe r => exact ⟨r, rfl⟩

/-- A strict comparison whose word is 1 holds. -/
theorem cmp_olt_eq_one {a b : EReal} (h : Ideal.cmp .olt a b = 1#1) : a < b := by
  unfold Ideal.cmp at h
  by_contra hn
  simp [hn] at h

/-- An "and" of two one-bit arrays that is 1 at an index has both operands 1 there. -/
theorem andi_one {s : Shape} {a b : IVec s 1} {j : s.Idx} (h : andi a b j = 1#1) : a j = 1#1 ∧ b j = 1#1 :=
  IntOp.andi_eq_one.1 h

/-- The conjunction over all entries of |x| < +∞ is 1 only if every entry of x is a real number (any shape). -/
theorem real_of_all {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi (cmpf .olt (Host.absf x) (broadcastInDim S ![] hb (constant S_ .f32 0x7F800000#32)))
          (constantI S_ 1 1#1) hr hu j = 1#1) :
    ∀ i, IsReal (x i) := by
  intro i
  have h1 := Host.reduce_andi_all _ _ hr hu j e i
  have h2 : Ideal.cmp .olt (max (x i) (-(x i))) (Ideal.ofBits .f32 0x7F800000#32) = 1#1 := h1
  rw [ofBits_inf] at h2
  exact isReal_of_abs_lt_top _ (cmp_olt_eq_one h2)

/-- Where the precondition holds, every entry of each of the eleven float arrays is a real number (argument order). -/
theorem real_of_finite_inputs_all [Cert.Pre_finite_inputs.Facts]
    (a0 a1 a2 : FVec Ideal S4x2048x512 .f32) (a3 : IVec S4x2048x2048 32)
    (a4 : FVec Ideal S8x64x512 .f32) (a5 : FVec Ideal S8x64 .f32)
    (a6 : FVec Ideal S8x64x512 .f32) (a7 : FVec Ideal S8x64 .f32)
    (a8 : FVec Ideal S64x512 .f32) (a9 : FVec Ideal S64 .f32)
    (a10 : FVec Ideal S512x64 .f32) (a11 : FVec Ideal S512 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have e := congrFun h ValueIdx.ix0
  dsimp only [Cert.Pre_finite_inputs.fn, Cert.Pre_finite_inputs.fn_part1, Cert.Pre_finite_inputs.fn_part2,
    Cert.Pre_finite_inputs.fn_part3] at e
  -- the "and" chain is nested to the left in argument order: the last array's conjunct is outermost
  obtain ⟨e, h11⟩ := andi_one e
  obtain ⟨e, h10⟩ := andi_one e
  obtain ⟨e, h9⟩ := andi_one e
  obtain ⟨e, h8⟩ := andi_one e
  obtain ⟨e, h7⟩ := andi_one e
  obtain ⟨e, h6⟩ := andi_one e
  obtain ⟨e, h5⟩ := andi_one e
  obtain ⟨e, h4⟩ := andi_one e
  obtain ⟨e, h2⟩ := andi_one e
  obtain ⟨h0, h1⟩ := andi_one e
  exact ⟨real_of_all a0 _ _ _ _ h0, real_of_all a1 _ _ _ _ h1, real_of_all a2 _ _ _ _ h2, real_of_all a4 _ _ _ _ h4,
    real_of_all a5 _ _ _ _ h5, real_of_all a6 _ _ _ _ h6, real_of_all a7 _ _ _ _ h7, real_of_all a8 _ _ _ _ h8,
    real_of_all a9 _ _ _ _ h9, real_of_all a10 _ _ _ _ h10, real_of_all a11 _ _ _ _ h11⟩

/-- The six arrays the attention scores depend on — queries, keys, and the two head projections with their biases —
    have only real entries where the precondition holds. -/
theorem real_of_finite_inputs [Cert.Pre_finite_inputs.Facts]
    (a0 a1 a2 : FVec Ideal S4x2048x512 .f32) (a3 : IVec S4x2048x2048 32)
    (a4 : FVec Ideal S8x64x512 .f32) (a5 : FVec Ideal S8x64 .f32)
    (a6 : FVec Ideal S8x64x512 .f32) (a7 : FVec Ideal S8x64 .f32)
    (a8 : FVec Ideal S64x512 .f32) (a9 : FVec Ideal S64 .f32)
    (a10 : FVec Ideal S512x64 .f32) (a11 : FVec Ideal S512 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a4 i)) ∧ (∀ i, IsReal (a5 i))
      ∧ (∀ i, IsReal (a6 i)) ∧ (∀ i, IsReal (a7 i)) := by
  obtain ⟨r0, r1, -, r4, r5, r6, r7, -⟩ := real_of_finite_inputs_all a0 a1 a2 a3 a4 a5 a6 a7 a8 a9 a10 a11 h
  exact ⟨r0, r1, r4, r5, r6, r7⟩

end Cert.Attn.Finite

end
-- ==== Proof.RefIsSpec.lean ====
/-
  The reference program's two results are the specification's: the averaged attention weights and the projected output,
  read one stage at a time at an index and matched with the sums, the row maximum, the softmax and the mask of the
  specification.
-/
import proofs.«150527_j89386859364957_1_alg».proof.Proof.Gen.ReferenceIdeal.Read
import proofs.«150527_j89386859364957_1_alg».proof.Proof.AttnSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The value projection -/

theorem lidx_v0 (b : Fin 4) (t : Fin 2048) (e : Fin 64) (k : Fin 512) :
    lidx_main_v0 (ix3 b t e) k = ix3 b t k := by
  funext a; match a with | ⟨0, _⟩ => rfl | ⟨1, _⟩ => rfl | ⟨2, _⟩ => rfl

theorem ridx_v0 (b : Fin 4) (t : Fin 2048) (e : Fin 64) (k : Fin 512) :
    ridx_main_v0 (ix3 b t e) k = ix2 e k := by
  funext a; match a with | ⟨0, _⟩ => rfl | ⟨1, _⟩ => rfl

theorem idx_v1_v2 (b : Fin 4) (t : Fin 2048) (e : Fin 64) :
    idx_main_v1 (idx_main_v2 (ix3 b t e)) = ix1 e := by
  funext a; match a with | ⟨0, _⟩ => rfl

/-- The projected values: stage 3 at (b, t, e). -/
theorem v3_at (x2 : (⟨S4x2048x512, .f32⟩ : BufTy).Contents (Elt Ideal)) (x8 : (⟨S64x512, .f32⟩ : BufTy).Contents (Elt Ideal))
    (x9 : (⟨S64, .f32⟩ : BufTy).Contents (Elt Ideal)) (b : Fin 4) (t : Fin 2048) (e : Fin 64) :
    val_main_v3 (F := Ideal) x2 x8 x9 (ix3 b t e) = Cert.Attn.valProj x2 x8 x9 b t e := by
  rw [val_main_v3_apply, val_main_v0_apply, val_main_v2_apply, val_main_v1_apply, idx_v1_v2]
  simp only [lidx_v0, ridx_v0]
  rfl

/-! ## The query and key projections -/

theorem lidx_v4_v5 (b : Fin 4) (h : Fin 8) (s : Fin 2048) (e : Fin 64) (k : Fin 512) :
    lidx_main_v4 (idx_main_v5 (ix4 b h s e)) k = ix3 h e k := by
  funext a; match a with | ⟨0, _⟩ => rfl | ⟨1, _⟩ => rfl | ⟨2, _⟩ => rfl

theorem ridx_v4_v5 (b : Fin 4) (h : Fin 8) (s : Fin 2048) (e : Fin 64) (k : Fin 512) :
    ridx_main_v4 (idx_main_v5 (ix4 b h s e)) k = ix3 b s k := by
  funext a; match a with | ⟨0, _⟩ => rfl | ⟨1, _⟩ => rfl | ⟨2, _⟩ => rfl

theorem idx_v6_v7 (b : Fin 4) (h : Fin 8) (s : Fin 2048) (e : Fin 64) :
    idx_main_v6 (idx_main_v7 (ix4 b h s e)) = ix2 h e := by
  funext a; match a with | ⟨0, _⟩ => rfl | ⟨1, _⟩ => rfl

/-- The projected queries: stage 8 at (b, h, s, e). -/
theorem v8_at (x0 : (⟨S4x2048x512, .f32⟩ : BufTy).Contents (Elt Ideal)) (x4 : (⟨S8x64x512, .f32⟩ : BufTy).Contents (Elt Ideal))
    (x5 : (⟨S8x64, .f32⟩ : BufTy).Contents (Elt Ideal)) (b : Fin 4) (h : Fin 8) (s : Fin 2048) (e : Fin 64) :
    val_main_v8 (F := Ideal) x0 x4 x5 (ix4 b h s e) = Cert.Attn.headProj x0 x4 x5 b h s e := by
  rw [val_main_v8_apply, val_main_v5_apply, val_main_v4_apply, val_main_v7_apply, val_main_v6_apply, idx_v6_v7]
  simp only [lidx_v4_v5, ridx_v4_v5]
  show (∑ k : Fin 512, x4 (ix3 h e k) * x0 (ix3 b s k)) + x5 (ix2 h e)
    = (∑ d : Fin 512, x0 (ix3 b s d) * x4 (ix3 h e d)) + x5 (ix2 h e)
  exact congrArg (· + x5 (ix2 h e)) (Finset.sum_congr rfl fun k _ => mul_comm _ _)

/-- The projected keys: stage 13 at (b, h, t, e). -/
theorem v13_at (x1 : (⟨S4x2048x512, .f32⟩ : BufTy).Contents (Elt Ideal)) (x6 : (⟨S8x64x512, .f32⟩ : BufTy).Contents (Elt Ideal))
    (x7 : (⟨S8x64, .f32⟩ : BufTy).Contents (Elt Ideal)) (b : Fin 4) (h : Fin 8) (t : Fin 2048) (e : Fin 64) :
    val_main_v13 (F := Ideal) x1 x6 x7 (ix4 b h t e) = Cert.Attn.headProj x1 x6 x7 b h t e := by
  rw [val_main_v13_apply, val_main_v10_apply, val_main_v9_apply, val_main_v12_apply, val_main_v11_apply]
  show (∑ k : Fin 512, x6 (lidx_main_v4 (idx_main_v5 (ix4 b h t e)) k) * x1 (ridx_main_v4 (idx_main_v5 (ix4 b h t e)) k))
      + x7 (idx_main_v6 (idx_main_v7 (ix4 b h t e)))
    = (∑ d : Fin 512, x1 (ix3 b t d) * x6 (ix3 h e d)) + x7 (ix2 h e)
  rw [idx_v6_v7]
  simp only [lidx_v4_v5, ridx_v4_v5]
  exact congrArg (· + x7 (ix2 h e)) (Finset.sum_congr rfl fun k _ => mul_comm _ _)

/-! ## The masked, scaled score -/

/-- The word `0x41000000` is the float 8. -/
theorem eight : Ideal.ofBits .f32 0x41000000#32 = ((8 : ℝ) : EReal) := by
  simp [Ideal.ofBits, Ideal.ieee]
  norm_cast
  norm_num

/-- Division by the float 8 is the product with one eighth. -/
theorem div_eight (x : EReal) : Ideal.div x (Ideal.ofBits .f32 0x41000000#32) = x * Cert.Attn.eighth := by
  rw [eight, Ideal.div_coe (by norm_num)]; rfl

theorem lidx_v14 (b : Fin 4) (h : Fin 8) (s t : Fin 2048) (k : Fin 64) :
    lidx_main_v14 (ix4 b h s t) k = ix4 b h s k := by
  funext a; match a with | ⟨0, _⟩ => rfl | ⟨1, _⟩ => rfl | ⟨2, _⟩ => rfl | ⟨3, _⟩ => rfl

theorem ridx_v14 (b : Fin 4) (h : Fin 8) (s t : Fin 2048) (k : Fin 64) :
    ridx_main_v14 (ix4 b h s t) k = ix4 b h t k := by
  funext a; match a with | ⟨0, _⟩ => rfl | ⟨1, _⟩ => rfl | ⟨2, _⟩ => rfl | ⟨3, _⟩ => rfl

theorem idx_v17_call0 (b : Fin 4) (h : Fin 8) (s t : Fin 2048) :
    idx_main_v17 (idx_main_call0_v1 (ix4 b h s t)) = ix3 b s t := by
  funext a; match a with | ⟨0, _⟩ => rfl | ⟨1, _⟩ => rfl | ⟨2, _⟩ => rfl

section Score

variable (x0 x1 : (⟨S4x2048x512, .f32⟩ : BufTy).Contents (Elt Ideal)) (x3 : (⟨S4x2048x2048, .i32⟩ : BufTy).Contents (Elt Ideal))
  (x4 : (⟨S8x64x512, .f32⟩ : BufTy).Contents (Elt Ideal)) (x5 : (⟨S8x64, .f32⟩ : BufTy).Contents (Elt Ideal))
  (x6 : (⟨S8x64x512, .f32⟩ : BufTy).Contents (Elt Ideal)) (x7 : (⟨S8x64, .f32⟩ : BufTy).Contents (Elt Ideal))

/-- The scaled score before the mask: stage 16 at (b, h, s, t). -/
theorem v16_at (b : Fin 4) (h : Fin 8) (s t : Fin 2048) :
    val_main_v16 (F := Ideal) x0 x1 x4 x5 x6 x7 (ix4 b h s t)
      = (∑ e : Fin 64, Cert.Attn.headProj x0 x4 x5 b h s e * Cert.Attn.headProj x1 x6 x7 b h t e) * Cert.Attn.eighth := by
  rw [val_main_v16_apply, val_main_v14_apply, val_main_v15_apply, val_main_cst_apply]
  simp only [lidx_v14, ridx_v14, v8_at, v13_at]
  exact div_eight _

/-- The masked score: stage 20 at (b, h, s, t). -/
theorem v20_at (b : Fin 4) (h : Fin 8) (s t : Fin 2048) :
    val_main_v20 (F := Ideal) x0 x1 x3 x4 x5 x6 x7 (ix4 b h s t) = Cert.Attn.score x0 x1 x3 x4 x5 x6 x7 b h s t := by
  rw [val_main_v20_apply, v16_at, val_main_call0_v1_apply, val_main_v19_apply, val_main_v17_apply, val_main_v18_apply,
    val_main_c_apply, idx_v17_call0, val_main_call0_v2_apply, val_main_call0_v0_apply, val_main_cst_0_apply]
  rfl

end Score

/-! ## The row maximum and the softmax -/

/-- The word `0xFF800000` is the least extended real. -/
theorem negInf : Ideal.ofBits .f32 0xFF800000#32 = (⊥ : EReal) := by
  simp [Ideal.ofBits, Ideal.ieee]

/-- Key row `k` put back into (b, h, s) is (b, h, s, k). -/
theorem lift_d3 (hR : S4x8x2048x2048.Reduces [3] S4x8x2048) (b : Fin 4) (h : Fin 8) (s : Fin 2048)
    (k : Fin (S4x8x2048x2048.size 3)) : hR.lift (ix3 b h s) k = ix4 b h s (⟨k.val, k.isLt⟩ : Fin 2048) := by
  funext c; apply Fin.ext
  fin_cases c <;> rfl

theorem idx_v24_v25 (b : Fin 4) (h : Fin 8) (s t : Fin 2048) :
    idx_main_v24 (idx_main_v25 (ix4 b h s t)) = ix3 b h s := by
  funext a; match a with | ⟨0, _⟩ => rfl | ⟨1, _⟩ => rfl | ⟨2, _⟩ => rfl

theorem idx_v28 (b : Fin 4) (h : Fin 8) (s : Fin 2048) (k : Fin 2048) :
    idx_main_v28 (ix3 b h s) k = ix4 b h s k := by
  funext a; match a with | ⟨0, _⟩ => rfl | ⟨1, _⟩ => rfl | ⟨2, _⟩ => rfl | ⟨3, _⟩ => rfl

theorem idx_v29_v30 (b : Fin 4) (h : Fin 8) (s t : Fin 2048) :
    idx_main_v29 (idx_main_v30 (ix4 b h s t)) = ix3 b h s := by
  funext a; match a with | ⟨0, _⟩ => rfl | ⟨1, _⟩ => rfl | ⟨2, _⟩ => rfl

section Softmax

variable (x0 x1 : (⟨S4x2048x512, .f32⟩ : BufTy).Contents (Elt Ideal)) (x3 : (⟨S4x2048x2048, .i32⟩ : BufTy).Contents (Elt Ideal))
  (x4 : (⟨S8x64x512, .f32⟩ : BufTy).Contents (Elt Ideal)) (x5 : (⟨S8x64, .f32⟩ : BufTy).Contents (Elt Ideal))
  (x6 : (⟨S8x64x512, .f32⟩ : BufTy).Contents (Elt Ideal)) (x7 : (⟨S8x64, .f32⟩ : BufTy).Contents (Elt Ideal))

/-- The fold of the maximum over a score row: stage 21 at (b, h, s). -/
theorem v21_at (b : Fin 4) (h : Fin 8) (s : Fin 2048) :
    val_main_v21 (F := Ideal) x0 x1 x3 x4 x5 x6 x7 (ix3 b h s)
      = Cert.Attn.rowMax (fun t => Cert.Attn.score x0 x1 x3 x4 x5 x6 x7 b h s t) := by
  have hR : S4x8x2048x2048.Reduces [3] S4x8x2048 := by decide
  unfold val_main_v21
  rw [Host.reduce_eq_fold_single FloatOps.maximumf _ _ reducesTo_S4x8x2048x2048_S4x8x2048_d3 hR h_S_]
  have hf : (val_main_v20 (F := Ideal) x0 x1 x3 x4 x5 x6 x7 ∘ hR.lift (ix3 b h s))
      = fun k : Fin (S4x8x2048x2048.size 3) => Cert.Attn.score x0 x1 x3 x4 x5 x6 x7 b h s (⟨k.val, k.isLt⟩ : Fin 2048) :=
    funext fun k => by rw [Function.comp_apply, lift_d3, v20_at]
  rw [hf, val_main_cst_1_apply]
  show Finset.fold max (Ideal.ofBits .f32 0xFF800000#32) _ _ = _
  rw [negInf]
  rfl

/-- The row maximum: stage 23 at (b, h, s). -/
theorem v23_at (b : Fin 4) (h : Fin 8) (s : Fin 2048) :
    val_main_v23 (F := Ideal) x0 x1 x3 x4 x5 x6 x7 (ix3 b h s)
      = Cert.Attn.rowMax (fun t => Cert.Attn.score x0 x1 x3 x4 x5 x6 x7 b h s t) := by
  rw [val_main_v23_apply, val_main_v22_apply, val_main_cst_2_apply, v21_at]
  show max (Ideal.ofBits .f32 0xFF800000#32) _ = _
  rw [negInf]
  exact max_eq_right bot_le

/-- The exponential of the shifted score: stage 27 at (b, h, s, t). -/
theorem v27_at (b : Fin 4) (h : Fin 8) (s t : Fin 2048) :
    val_main_v27 (F := Ideal) x0 x1 x3 x4 x5 x6 x7 (ix4 b h s t)
      = Ideal.exp (Cert.Attn.score x0 x1 x3 x4 x5 x6 x7 b h s t
          - Cert.Attn.rowMax (fun t' => Cert.Attn.score x0 x1 x3 x4 x5 x6 x7 b h s t')) := by
  rw [val_main_v27_apply, val_main_v26_apply, v20_at, val_main_v25_apply, val_main_v24_apply, idx_v24_v25, v23_at]
  rfl

/-- The attention weights of one head: stage 31 at (b, h, s, t). -/
theorem v31_at (b : Fin 4) (h : Fin 8) (s t : Fin 2048) :
    val_main_v31 (F := Ideal) x0 x1 x3 x4 x5 x6 x7 (ix4 b h s t) = Cert.Attn.attn x0 x1 x3 x4 x5 x6 x7 b h s t := by
  rw [val_main_v31_apply, v27_at, val_main_v30_apply, val_main_v29_apply, idx_v29_v30, val_main_v28_apply,
    val_main_cst_3_apply]
  simp only [idx_v28, v27_at]
  show Ideal.div _ (Ideal.ofBits .f32 0x00000000#32 + _) = _
  rw [Ideal.ofBits_zero_f32, zero_add]
  rfl

end Softmax

/-! ## The sum over the heads, the weighted values and the two results -/

theorem idx_v32 (b : Fin 4) (s t : Fin 2048) (k : Fin 8) :
    idx_main_v32 (ix3 b s t) k = ix4 b k s t := by
  funext a; match a with | ⟨0, _⟩ => rfl | ⟨1, _⟩ => rfl | ⟨2, _⟩ => rfl | ⟨3, _⟩ => rfl

theorem idx_v40 (b : Fin 4) (s t : Fin 2048) (k : Fin 8) :
    idx_main_v40 (ix3 b s t) k = ix4 b k s t := by
  funext a; match a with | ⟨0, _⟩ => rfl | ⟨1, _⟩ => rfl | ⟨2, _⟩ => rfl | ⟨3, _⟩ => rfl

theorem lidx_v33 (b : Fin 4) (s : Fin 2048) (e : Fin 64) (k : Fin 2048) :
    lidx_main_v33 (ix3 b s e) k = ix3 b s k := by
  funext a; match a with | ⟨0, _⟩ => rfl | ⟨1, _⟩ => rfl | ⟨2, _⟩ => rfl

theorem ridx_v33 (b : Fin 4) (s : Fin 2048) (e : Fin 64) (k : Fin 2048) :
    ridx_main_v33 (ix3 b s e) k = ix3 b k e := by
  funext a; match a with | ⟨0, _⟩ => rfl | ⟨1, _⟩ => rfl | ⟨2, _⟩ => rfl

theorem lidx_v36 (b : Fin 4) (s : Fin 2048) (j : Fin 512) (k : Fin 64) :
    lidx_main_v36 (ix3 b s j) k = ix3 b s k := by
  funext a; match a with | ⟨0, _⟩ => rfl | ⟨1, _⟩ => rfl | ⟨2, _⟩ => rfl

theorem ridx_v36 (b : Fin 4) (s : Fin 2048) (j : Fin 512) (k : Fin 64) :
    ridx_main_v36 (ix3 b s j) k = ix2 j k := by
  funext a; match a with | ⟨0, _⟩ => rfl | ⟨1, _⟩ => rfl

theorem idx_v37_v38 (b : Fin 4) (s : Fin 2048) (j : Fin 512) :
    idx_main_v37 (idx_main_v38 (ix3 b s j)) = ix1 j := by
  funext a; match a with | ⟨0, _⟩ => rfl

section Results

variable (x0 x1 x2 : (⟨S4x2048x512, .f32⟩ : BufTy).Contents (Elt Ideal)) (x3 : (⟨S4x2048x2048, .i32⟩ : BufTy).Contents (Elt Ideal))
  (x4 : (⟨S8x64x512, .f32⟩ : BufTy).Contents (Elt Ideal)) (x5 : (⟨S8x64, .f32⟩ : BufTy).Contents (Elt Ideal))
  (x6 : (⟨S8x64x512, .f32⟩ : BufTy).Contents (Elt Ideal)) (x7 : (⟨S8x64, .f32⟩ : BufTy).Contents (Elt Ideal))
  (x8 : (⟨S64x512, .f32⟩ : BufTy).Contents (Elt Ideal)) (x9 : (⟨S64, .f32⟩ : BufTy).Contents (Elt Ideal))
  (x10 : (⟨S512x64, .f32⟩ : BufTy).Contents (Elt Ideal)) (x11 : (⟨S512, .f32⟩ : BufTy).Contents (Elt Ideal))

/-- The weights summed over the heads: stage 32 at (b, s, t). -/
theorem v32_at (b : Fin 4) (s t : Fin 2048) :
    val_main_v32 (F := Ideal) x0 x1 x3 x4 x5 x6 x7 (ix3 b s t) = ∑ h : Fin 8, Cert.Attn.attn x0 x1 x3 x4 x5 x6 x7 b h s t := by
  rw [val_main_v32_apply, val_main_cst_4_apply]
  simp only [idx_v32, v31_at]
  show Ideal.ofBits .f32 0x00000000#32 + _ = _
  rw [Ideal.ofBits_zero_f32, zero_add]

/-- The weights summed over the heads, a second time: stage 40 at (b, s, t). -/
theorem v40_at (b : Fin 4) (s t : Fin 2048) :
    val_main_v40 (F := Ideal) x0 x1 x3 x4 x5 x6 x7 (ix3 b s t) = ∑ h : Fin 8, Cert.Attn.attn x0 x1 x3 x4 x5 x6 x7 b h s t := by
  rw [val_main_v40_apply, val_main_cst_6_apply]
  simp only [idx_v40, v31_at]
  show Ideal.ofBits .f32 0x00000000#32 + _ = _
  rw [Ideal.ofBits_zero_f32, zero_add]

/-- THE SECOND RESULT of the reference is the head-averaged attention weights. -/
theorem ref_weights :
    val_main_v42 (F := Ideal) x0 x1 x3 x4 x5 x6 x7 = Cert.Attn.attnMean x0 x1 x3 x4 x5 x6 x7 := by
  funext i
  obtain ⟨b, s, t, rfl⟩ : ∃ b s t, i = ix3 b s t := ⟨_, _, _, eq_ix3 i⟩
  rw [val_main_v42_apply, v40_at, val_main_v41_apply, val_main_cst_7_apply]
  exact div_eight _

/-- The head-averaged weighted values: stage 35 at (b, s, e). -/
theorem v35_at (b : Fin 4) (s : Fin 2048) (e : Fin 64) :
    val_main_v35 (F := Ideal) x0 x1 x2 x3 x4 x5 x6 x7 x8 x9 (ix3 b s e)
      = Cert.Attn.mixed x0 x1 x2 x3 x4 x5 x6 x7 x8 x9 b s e := by
  rw [val_main_v35_apply, val_main_v33_apply, val_main_v34_apply, val_main_cst_5_apply]
  simp only [lidx_v33, ridx_v33, v32_at, v3_at]
  exact div_eight _

/-- THE FIRST RESULT of the reference is the output projection of the head-averaged weighted values. -/
theorem ref_out :
    val_main_v39 (F := Ideal) x0 x1 x2 x3 x4 x5 x6 x7 x8 x9 x10 x11
      = Cert.Attn.outProj x0 x1 x2 x3 x4 x5 x6 x7 x8 x9 x10 x11 := by
  funext i
  obtain ⟨b, s, j, rfl⟩ : ∃ b s j, i = ix3 b s j := ⟨_, _, _, eq_ix3 i⟩
  rw [val_main_v39_apply, val_main_v36_apply, val_main_v38_apply, val_main_v37_apply, idx_v37_v38]
  simp only [lidx_v36, ridx_v36, v35_at]
  rfl

end Results

end Cert.ReferenceIdeal.RefValue

end
-- ==== Proof.BlocksToArrays.lean ====
/-
  From grid points to whole arrays. The kernel runs on 32 grid points t = 8·b + q, b a batch and q a tile of 256 query
  rows. Each input block is read at explicit coordinates of its argument array: the queries' and the mask's block at
  point t is rows 256·q … 256·q + 255 of batch b, the keys' and values' block is all of batch b, the weights and biases
  are staged whole. Each output array after the run is assembled from what the points write back: when every point
  writes rows 256·q … 256·q + 255 of batch b of one whole-array function, the array ends holding that function.
-/
import proofs.«150527_j89386859364957_1_alg».proof.Proof.Gen.KernelIdeal.Value
import Idealize.ShloMosaic.Lib.Pipeline.Value
import Idealize.ShloMosaic.Lib.ValueIdx

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## The grid point's batch and rows -/

/-- A grid point is below 32. -/
theorem point_lt (t : Fin cfg0.N) : t.val < 32 := lt_of_lt_of_eq t.isLt (show cfg0.N = 32 from N_0)

/-- The batch of grid point `t = 8·b + q`. -/
def bOf (t : Fin cfg0.N) : Fin 4 := ⟨t.val / 8, by have := point_lt t; omega⟩

/-- Row `r` of the query tile of grid point `t = 8·b + q`: row `256·q + r` of the batch. -/
def rowOf (t : Fin cfg0.N) (r : Fin 256) : Fin 2048 := ⟨256 * (t.val % 8) + r.val, by have := r.isLt; omega⟩

@[simp] theorem bOf_val (t : Fin cfg0.N) : (bOf t).val = t.val / 8 := rfl
@[simp] theorem rowOf_val (t : Fin cfg0.N) (r : Fin 256) : (rowOf t r).val = 256 * (t.val % 8) + r.val := rfl

/-! ## The index maps, decided over the grid -/

/-- The query-tiled windows (queries, mask, both outputs) sit at block (b, q, 0). -/
theorem idx_tiled : ∀ t : Fin cfg0.N,
    (win0_0.index t (0 : Fin 3) = t.val / 8 ∧ win0_0.index t (1 : Fin 3) = t.val % 8 ∧ win0_0.index t (2 : Fin 3) = 0)
    ∧ (win0_3.index t (0 : Fin 3) = t.val / 8 ∧ win0_3.index t (1 : Fin 3) = t.val % 8 ∧ win0_3.index t (2 : Fin 3) = 0)
    ∧ (win0_12.index t (0 : Fin 3) = t.val / 8 ∧ win0_12.index t (1 : Fin 3) = t.val % 8 ∧ win0_12.index t (2 : Fin 3) = 0)
    ∧ (win0_13.index t (0 : Fin 3) = t.val / 8 ∧ win0_13.index t (1 : Fin 3) = t.val % 8 ∧ win0_13.index t (2 : Fin 3) = 0) :=
  (by decide +kernel : ∀ t : Fin grid0.N, _)

/-- The keys' and values' windows sit at block (b, 0, 0). -/
theorem idx_batch : ∀ t : Fin cfg0.N,
    (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0) :=
  (by decide +kernel : ∀ t : Fin grid0.N, _)

/-- The weights' and biases' windows sit at block 0 on every axis. -/
theorem idx_whole : ∀ t : Fin cfg0.N,
    (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0 :=
  (by decide +kernel : ∀ t : Fin grid0.N, _)

section Inputs

variable {F : FTy → Type} [FloatOps F]
variable (m : (ℓ : Loc nD τ sig) → Buf (Elt F) ℓ)

/-! ## The input blocks at explicit coordinates -/

/-- The queries' block at point `t`: rows `256·q + r` of batch `b`. -/
theorem iblk0_apply (c : Dev nD) (t : Fin cfg0.N) (r : Fin 256) (d : Fin 512) :
    (iblk m c 0 t : Vec F S1x256x512 .f32) (ix3 (0 : Fin 1) r d)
      = (V m c main_arg0 : S4x2048x512.Idx → Elt F .f32) (ix3 (bOf t) (rowOf t r) d) := by
  obtain ⟨⟨e0, e1, e2⟩, -⟩ := idx_tiled t
  unfold iblk
  rw [View.read_apply]
  show V m c main_arg0 _ = V m c main_arg0 _
  congr 1
  funext a
  apply Fin.ext
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 512 + 1 * d.val = d.val; omega

/-- The keys' block at point `t`: all of batch `b`. -/
theorem iblk1_apply (c : Dev nD) (t : Fin cfg0.N) (s : Fin 2048) (d : Fin 512) :
    (iblk m c 1 t : Vec F S1x2048x512 .f32) (ix3 (0 : Fin 1) s d)
      = (V m c main_arg1 : S4x2048x512.Idx → Elt F .f32) (ix3 (bOf t) s d) := by
  obtain ⟨⟨e0, e1, e2⟩, -⟩ := idx_batch t
  unfold iblk
  rw [View.read_apply]
  show V m c main_arg1 _ = V m c main_arg1 _
  congr 1
  funext a
  apply Fin.ext
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ => show win0_1.index t (2 : Fin 3) * 512 + 1 * d.val = d.val; omega

/-- The values' block at point `t`: all of batch `b`. -/
theorem iblk2_apply (c : Dev nD) (t : Fin cfg0.N) (s : Fin 2048) (d : Fin 512) :
    (iblk m c 2 t : Vec F S1x2048x512 .f32) (ix3 (0 : Fin 1) s d)
      = (V m c main_arg2 : S4x2048x512.Idx → Elt F .f32) (ix3 (bOf t) s d) := by
  obtain ⟨-, e0, e1, e2⟩ := idx_batch t
  unfold iblk
  rw [View.read_apply]
  show V m c main_arg2 _ = V m c main_arg2 _
  congr 1
  funext a
  apply Fin.ext
  match a with
  | ⟨0, _⟩ => show win0_2.index t (0 : Fin 3) * 1 + 1 * 0 = t.val / 8; omega
  | ⟨1, _⟩ => show win0_2.index t (1 : Fin 3) * 2048 + 1 * s.val = s.val; omega
  | ⟨2, _⟩ => show win0_2.index t (2 : Fin 3) * 512 + 1 * d.val = d.val; omega

/-- The mask's block at point `t`: rows `256·q + r` of batch `b`. -/
theorem iblk3_apply (c : Dev nD) (t : Fin cfg0.N) (r : Fin 256) (s : Fin 2048) :
    (iblk m c 3 t : Vec F S1x256x2048 .i32) (ix3 (0 : Fin 1) r s)
      = (V m c main_arg3 : S4x2048x2048.Idx → Elt F .i32) (ix3 (bOf t) (rowOf t r) s) := by
  obtain ⟨-, ⟨e0, e1, e2⟩, -⟩ := idx_tiled t
  unfold iblk
  rw [View.read_apply]
  show V m c main_arg3 _ = V m c main_arg3 _
  congr 1
  funext a
  apply Fin.ext
  match a with
  | ⟨0, _⟩ => show win0_3.index t (0 : Fin 3) * 1 + 1 * 0 = t.val / 8; omega
  | ⟨1, _⟩ => show win0_3.index t (1 : Fin 3) * 256 + 1 * r.val = 256 * (t.val % 8) + r.val; omega
  | ⟨2, _⟩ => show win0_3.index t (2 : Fin 3) * 2048 + 1 * s.val = s.val; omega

/-- The query weights are staged whole. -/
theorem iblk4_eq (c : Dev nD) (t : Fin cfg0.N) :
    (iblk m c 4 t : Vec F S8x64x512 .f32) = (V m c main_arg4 : S8x64x512.Idx → Elt F .f32) := by
  obtain ⟨⟨e0, e1, e2⟩, -⟩ := idx_whole t
  funext j
  unfold iblk
  rw [View.read_apply]
  show V m c main_arg4 _ = V m c main_arg4 _
  congr 1
  funext a
  apply Fin.ext
  match a with
  | ⟨0, _⟩ => show win0_4.index t (0 : Fin 3) * 8 + 1 * (j 0).val = (j 0).val; omega
  | ⟨1, _⟩ => show win0_4.index t (1 : Fin 3) * 64 + 1 * (j 1).val = (j 1).val; omega
  | ⟨2, _⟩ => show win0_4.index t (2 : Fin 3) * 512 + 1 * (j 2).val = (j 2).val; omega

/-- The query biases are staged whole. -/
theorem iblk5_eq (c : Dev nD) (t : Fin cfg0.N) :
    (iblk m c 5 t : Vec F S8x64 .f32) = (V m c main_arg5 : S8x64.Idx → Elt F .f32) := by
  obtain ⟨-, ⟨e0, e1⟩, -⟩ := idx_whole t
  funext j
  unfold iblk
  rw [View.read_apply]
  show V m c main_arg5 _ = V m c main_arg5 _
  congr 1
  funext a
  apply Fin.ext
  match a with
  | ⟨0, _⟩ => show win0_5.index t (0 : Fin 2) * 8 + 1 * (j 0).val = (j 0).val; omega
  | ⟨1, _⟩ => show win0_5.index t (1 : Fin 2) * 64 + 1 * (j 1).val = (j 1).val; omega

/-- The key weights are staged whole. -/
theorem iblk6_eq (c : Dev nD) (t : Fin cfg0.N) :
    (iblk m c 6 t : Vec F S8x64x512 .f32) = (V m c main_arg6 : S8x64x512.Idx → Elt F .f32) := by
  obtain ⟨-, -, ⟨e0, e1, e2⟩, -⟩ := idx_whole t
  funext j
  unfold iblk
  rw [View.read_apply]
  show V m c main_arg6 _ = V m c main_arg6 _
  congr 1
  funext a
  apply Fin.ext
  match a with
  | ⟨0, _⟩ => show win0_6.index t (0 : Fin 3) * 8 + 1 * (j 0).val = (j 0).val; omega
  | ⟨1, _⟩ => show win0_6.index t (1 : Fin 3) * 64 + 1 * (j 1).val = (j 1).val; omega
  | ⟨2, _⟩ => show win0_6.index t (2 : Fin 3) * 512 + 1 * (j 2).val = (j 2).val; omega

/-- The key biases are staged whole. -/
theorem iblk7_eq (c : Dev nD) (t : Fin cfg0.N) :
    (iblk m c 7 t : Vec F S8x64 .f32) = (V m c main_arg7 : S8x64.Idx → Elt F .f32) := by
  obtain ⟨-, -, -, ⟨e0, e1⟩, -⟩ := idx_whole t
  funext j
  unfold iblk
  rw [View.read_apply]
  show V m c main_arg7 _ = V m c main_arg7 _
  congr 1
  funext a
  apply Fin.ext
  match a with
  | ⟨0, _⟩ => show win0_7.index t (0 : Fin 2) * 8 + 1 * (j 0).val = (j 0).val; omega
  | ⟨1, _⟩ => show win0_7.index t (1 : Fin 2) * 64 + 1 * (j 1).val = (j 1).val; omega

/-- The value weights are staged whole. -/
theorem iblk8_eq (c : Dev nD) (t : Fin cfg0.N) :
    (iblk m c 8 t : Vec F S64x512 .f32) = (V m c main_arg8 : S64x512.Idx → Elt F .f32) := by
  obtain ⟨-, -, -, -, ⟨e0, e1⟩, -⟩ := idx_whole t
  funext j
  unfold iblk
  rw [View.read_apply]
  show V m c main_arg8 _ = V m c main_arg8 _
  congr 1
  funext a
  apply Fin.ext
  match a with
  | ⟨0, _⟩ => show win0_8.index t (0 : Fin 2) * 64 + 1 * (j 0).val = (j 0).val; omega
  | ⟨1, _⟩ => show win0_8.index t (1 : Fin 2) * 512 + 1 * (j 1).val = (j 1).val; omega

/-- The value biases are staged whole. -/
theorem iblk9_eq (c : Dev nD) (t : Fin cfg0.N) :
    (iblk m c 9 t : Vec F S64 .f32) = (V m c main_arg9 : S64.Idx → Elt F .f32) := by
  obtain ⟨-, -, -, -, -, e0, -⟩ := idx_whole t
  funext j
  unfold iblk
  rw [View.read_apply]
  show V m c main_arg9 _ = V m c main_arg9 _
  congr 1
  funext a
  apply Fin.ext
  match a with
  | ⟨0, _⟩ => show win0_9.index t (0 : Fin 1) * 64 + 1 * (j 0).val = (j 0).val; omega

/-- The output weights are staged whole. -/
theorem iblk10_eq (c : Dev nD) (t : Fin cfg0.N) :
    (iblk m c 10 t : Vec F S512x64 .f32) = (V m c main_arg10 : S512x64.Idx → Elt F .f32) := by
  obtain ⟨-, -, -, -, -, -, ⟨e0, e1⟩, -⟩ := idx_whole t
  funext j
  unfold iblk
  rw [View.read_apply]
  show V m c main_arg10 _ = V m c main_arg10 _
  congr 1
  funext a
  apply Fin.ext
  match a with
  | ⟨0, _⟩ => show win0_10.index t (0 : Fin 2) * 512 + 1 * (j 0).val = (j 0).val; omega
  | ⟨1, _⟩ => show win0_10.index t (1 : Fin 2) * 64 + 1 * (j 1).val = (j 1).val; omega

/-- The output biases are staged whole. -/
theorem iblk11_eq (c : Dev nD) (t : Fin cfg0.N) :
    (iblk m c 11 t : Vec F S512 .f32) = (V m c main_arg11 : S512.Idx → Elt F .f32) := by
  obtain ⟨-, -, -, -, -, -, -, e0⟩ := idx_whole t
  funext j
  unfold iblk
  rw [View.read_apply]
  show V m c main_arg11 _ = V m c main_arg11 _
  congr 1
  funext a
  apply Fin.ext
  match a with
  | ⟨0, _⟩ => show win0_11.index t (0 : Fin 1) * 512 + 1 * (j 0).val = (j 0).val; omega

end Inputs

/-! ## A tile of rows read through a whole-array function -/

/-- A block of 256 rows whose entry (0, r, j) is `G` at (b, 256·q + r, j), read at an index `y`, is `G` at the array
    index `k` whose coordinates are (b, 256·q + y₁, y₂). -/
theorem tile_read {n : Nat} (X : (⟨3, ![1, 256, n]⟩ : Shape).Idx → EReal) (G : (⟨3, ![4, 2048, n]⟩ : Shape).Idx → EReal)
    (t : Fin cfg0.N) (hX : ∀ (r : Fin 256) (j : Fin n), X (ix3 (0 : Fin 1) r j) = G (ix3 (bOf t) (rowOf t r) j))
    (y : (⟨3, ![1, 256, n]⟩ : Shape).Idx) (k : (⟨3, ![4, 2048, n]⟩ : Shape).Idx)
    (hk0 : (k 0).val = t.val / 8) (hk1 : (k 1).val = 256 * (t.val % 8) + (y 1).val) (hk2 : (k 2).val = (y 2).val) :
    X y = G k := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  have hk : k = ix3 (bOf t) (rowOf t (y 1)) (y 2) := by
    funext a
    match a with
    | ⟨0, _⟩ => exact Fin.ext hk0
    | ⟨1, _⟩ => exact Fin.ext hk1
    | ⟨2, _⟩ => exact Fin.ext hk2
  exact (congrArg X hy).trans ((hX (y 1) (y 2)).trans (congrArg G hk.symm))

section Outputs

variable (m : (ℓ : Loc nD τ sig) → Buf (Elt Ideal) ℓ) (ρ : Dev nD → PrngReg)

/-! ## The first result: output window 12 -/

/-- WHAT POINT `t` WRITES BACK to the first result is block `t` of `G12`. -/
theorem flushed12_eq (c : Dev nD) (G12 : S4x2048x512.Idx → EReal)
    (h12 : ∀ (t : Fin cfg0.N) (r : Fin 256) (j : Fin 512),
      (outsAt0 m c t.val t.isLt).1 (ix3 (0 : Fin 1) r j) = G12 (ix3 (bOf t) (rowOf t r) j))
    (t : Fin cfg0.N) :
    (dats m 0 c).flushed 12 t = ((cfg0.win 12).blk t).view.read (Elt Ideal) G12 := by
  rw [flushed12]
  obtain ⟨-, -, ⟨e0, e1, e2⟩, -⟩ := idx_tiled t
  funext y
  have hy0 : (y 0).val < 1 := (y 0).isLt
  refine tile_read (outsAt0 m c t.val t.isLt).1 G12 t (h12 t) ((cfg0.win 12).xinj (grid0.coords t) y)
    (((cfg0.win 12).blk t).view.emb y) ?_ ?_ ?_
  · show win0_12.index t (0 : Fin 3) * 1 + 1 * (y 0).val = t.val / 8; omega
  · show win0_12.index t (1 : Fin 3) * 256 + 1 * (y 1).val = 256 * (t.val % 8) + (y 1).val; omega
  · show win0_12.index t (2 : Fin 3) * 512 + 1 * (y 2).val = (y 2).val; omega

/-- An index of the first result is in point `t`'s block iff each coordinate is in the block's range on its axis. -/
theorem mem_blk12 (t : Fin cfg0.N) (i : S4x2048x512.Idx) :
    i ∈ ((cfg0.win 12).blk t).view.set ↔ ∀ a : Fin 3, win0_12.index t a * S1x256x512.size a ≤ (i a).val
      ∧ (i a).val < win0_12.index t a * S1x256x512.size a + S1x256x512.size a := by
  show i ∈ ((View.whole main_v0_0).slice (win0_12.rect t)).set ↔ _
  rw [View.set_slice_whole, Rect.mem_set_unit]
  exact Iff.rfl

/-- Every index (b, s, j) of the first result is in the block of point `8·b + s / 256`. -/
theorem cover12 (i : S4x2048x512.Idx) :
    ∃ t : Fin cfg0.N, (cfg0.win 12).flush t = true ∧ i ∈ ((cfg0.win 12).blk t).view.set := by
  have h0 : (i 0).val < 4 := (i 0).isLt
  have h1 : (i 1).val < 2048 := (i 1).isLt
  have h2 : (i 2).val < 512 := (i 2).isLt
  obtain ⟨t, ht⟩ : ∃ t : Fin cfg0.N, t.val = 8 * (i 0).val + (i 1).val / 256 :=
    ⟨⟨8 * (i 0).val + (i 1).val / 256, lt_of_lt_of_eq (by omega) N_0.symm⟩, rfl⟩
  obtain ⟨-, -, ⟨e0, e1, e2⟩, -⟩ := idx_tiled t
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 256 ≤ (i 1).val ∧ (i 1).val < win0_12.index t (1 : Fin 3) * 256 + 256; omega
  | ⟨2, _⟩ => show win0_12.index t (2 : Fin 3) * 512 ≤ (i 2).val ∧ (i 2).val < win0_12.index t (2 : Fin 3) * 512 + 512; omega

/-- THE FIRST RESULT after the run is `G12`. -/
theorem final12 (c : Dev nD) (G12 : S4x2048x512.Idx → EReal)
    (h12 : ∀ (t : Fin cfg0.N) (r : Fin 256) (j : Fin 512),
      (outsAt0 m c t.val t.isLt).1 (ix3 (0 : Fin 1) r j) = G12 (ix3 (bOf t) (rowOf t r) j)) :
    (dats m 0 c).arrAt 12 cfg0.N = G12 :=
  (dats m 0 c).arrAt_eq_of_cover 12 G12 (fun t _ => flushed12_eq m c G12 h12 t) cover12

/-! ## The second result: output window 13 -/

/-- WHAT POINT `t` WRITES BACK to the second result is block `t` of `G13`. -/
theorem flushed13_eq (c : Dev nD) (G13 : S4x2048x2048.Idx → EReal)
    (h13 : ∀ (t : Fin cfg0.N) (r : Fin 256) (s : Fin 2048),
      (outsAt0 m c t.val t.isLt).2.1 (ix3 (0 : Fin 1) r s) = G13 (ix3 (bOf t) (rowOf t r) s))
    (t : Fin cfg0.N) :
    (dats m 0 c).flushed 13 t = ((cfg0.win 13).blk t).view.read (Elt Ideal) G13 := by
  rw [flushed13]
  obtain ⟨-, -, -, e0, e1, e2⟩ := idx_tiled t
  funext y
  have hy0 : (y 0).val < 1 := (y 0).isLt
  refine tile_read (outsAt0 m c t.val t.isLt).2.1 G13 t (h13 t) ((cfg0.win 13).xinj (grid0.coords t) y)
    (((cfg0.win 13).blk t).view.emb y) ?_ ?_ ?_
  · show win0_13.index t (0 : Fin 3) * 1 + 1 * (y 0).val = t.val / 8; omega
  · show win0_13.index t (1 : Fin 3) * 256 + 1 * (y 1).val = 256 * (t.val % 8) + (y 1).val; omega
  · show win0_13.index t (2 : Fin 3) * 2048 + 1 * (y 2).val = (y 2).val; omega

/-- An index of the second result is in point `t`'s block iff each coordinate is in the block's range on its axis. -/
theorem mem_blk13 (t : Fin cfg0.N) (i : S4x2048x2048.Idx) :
    i ∈ ((cfg0.win 13).blk t).view.set ↔ ∀ a : Fin 3, win0_13.index t a * S1x256x2048.size a ≤ (i a).val
      ∧ (i a).val < win0_13.index t a * S1x256x2048.size a + S1x256x2048.size a := by
  show i ∈ ((View.whole main_v0_1).slice (win0_13.rect t)).set ↔ _
  rw [View.set_slice_whole, Rect.mem_set_unit]
  exact Iff.rfl

/-- Every index (b, s, u) of the second result is in the block of point `8·b + s / 256`. -/
theorem cover13 (i : S4x2048x2048.Idx) :
    ∃ t : Fin cfg0.N, (cfg0.win 13).flush t = true ∧ i ∈ ((cfg0.win 13).blk t).view.set := by
  have h0 : (i 0).val < 4 := (i 0).isLt
  have h1 : (i 1).val < 2048 := (i 1).isLt
  have h2 : (i 2).val < 2048 := (i 2).isLt
  obtain ⟨t, ht⟩ : ∃ t : Fin cfg0.N, t.val = 8 * (i 0).val + (i 1).val / 256 :=
    ⟨⟨8 * (i 0).val + (i 1).val / 256, lt_of_lt_of_eq (by omega) N_0.symm⟩, rfl⟩
  obtain ⟨-, -, -, e0, e1, e2⟩ := idx_tiled t
  refine ⟨t, flush0_13 t, ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 256 ≤ (i 1).val ∧ (i 1).val < win0_13.index t (1 : Fin 3) * 256 + 256; omega
  | ⟨2, _⟩ => show win0_13.index t (2 : Fin 3) * 2048 ≤ (i 2).val ∧ (i 2).val < win0_13.index t (2 : Fin 3) * 2048 + 2048; omega

/-- THE SECOND RESULT after the run is `G13`. -/
theorem final13 (c : Dev nD) (G13 : S4x2048x2048.Idx → EReal)
    (h13 : ∀ (t : Fin cfg0.N) (r : Fin 256) (s : Fin 2048),
      (outsAt0 m c t.val t.isLt).2.1 (ix3 (0 : Fin 1) r s) = G13 (ix3 (bOf t) (rowOf t r) s)) :
    (dats m 0 c).arrAt 13 cfg0.N = G13 :=
  (dats m 0 c).arrAt_eq_of_cover 13 G13 (fun t _ => flushed13_eq m c G13 h13 t) cover13

/-! ## The run, read -/

/-- The run with both results named: when every point leaves in the two outputs' blocks the rows of `G12` and `G13` it
    covers, the result arrays end holding `G12` and `G13`, the arguments unchanged. -/
theorem run_spec (G12 : Dev nD → S4x2048x512.Idx → EReal) (G13 : Dev nD → S4x2048x2048.Idx → EReal)
    (h12 : ∀ (c : Dev nD) (t : Fin cfg0.N) (r : Fin 256) (j : Fin 512),
      (outsAt0 m c t.val t.isLt).1 (ix3 (0 : Fin 1) r j) = G12 c (ix3 (bOf t) (rowOf t r) j))
    (h13 : ∀ (c : Dev nD) (t : Fin cfg0.N) (r : Fin 256) (s : Fin 2048),
      (outsAt0 m c t.val t.isLt).2.1 (ix3 (0 : Fin 1) r s) = G13 c (ix3 (bOf t) (rowOf t r) s)) :
    θ_run defs (onTc (τ := τ) (main (F := Ideal))) ⟨m, fun _ => 0, ρ⟩ fun r => ∀ c : Dev nD,
      r.2.mem ((c : Thread nD τ).loc main_v0_0) = G12 c
      ∧ r.2.mem ((c : Thread nD τ).loc main_v0_1) = G13 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c (G12 c) (h12 c)),
      (h c).2.1.trans (final13 m c (G13 c) (h13 c)), (h c).2.2⟩)
    (run_blocks m ρ)

end Outputs

end Cert.KernelIdeal.Arrays

end
-- ==== Proof.KTile.lean ====
/-
  One grid point of the attention kernel as vector functions of its blocks.

  The body treats the eight heads one after the other: head `h` takes rows `h` of the query weights and bias and
  slab `h` of the projected keys (a scratch buffer), forms its softmax weights for the 256 query rows of the tile against
  all 2048 key rows, adds them to a running sum of weights, and adds their product with the projected values (a second
  scratch buffer) to a running sum of weighted values.  The tile of mean attention weights is the first running sum times
  one eighth; the output tile is the second running sum times one eighth, through the output projection.
  The definitions below spell these with the printed program's own operations, one head's weights as ONE function
  (`k0_pay24`) applied to that head's slices, so that the stored payloads are these functions by unfolding.
-/
import proofs.«150527_j89386859364957_1_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen Idealize.ShloMosaic Idealize.ShloMosaic.TcCoe Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Slices by head -/

/-- Row block `h` of a stack of eight weight matrices. -/
def wSlice (x : Vec F S8x64x512 .f32) : Fin 8 → Vec F S1x64x512 .f32
  | ⟨0, _⟩ => View.ld x (Rect.unit ![0, 0, 0] S1x64x512.size inb_S8x64x512_S1x64x512_0_0_0)
  | ⟨1, _⟩ => View.ld x (Rect.unit ![1, 0, 0] S1x64x512.size inb_S8x64x512_S1x64x512_1_0_0)
  | ⟨2, _⟩ => View.ld x (Rect.unit ![2, 0, 0] S1x64x512.size inb_S8x64x512_S1x64x512_2_0_0)
  | ⟨3, _⟩ => View.ld x (Rect.unit ![3, 0, 0] S1x64x512.size inb_S8x64x512_S1x64x512_3_0_0)
  | ⟨4, _⟩ => View.ld x (Rect.unit ![4, 0, 0] S1x64x512.size inb_S8x64x512_S1x64x512_4_0_0)
  | ⟨5, _⟩ => View.ld x (Rect.unit ![5, 0, 0] S1x64x512.size inb_S8x64x512_S1x64x512_5_0_0)
  | ⟨6, _⟩ => View.ld x (Rect.unit ![6, 0, 0] S1x64x512.size inb_S8x64x512_S1x64x512_6_0_0)
  | ⟨7, _⟩ => View.ld x (Rect.unit ![7, 0, 0] S1x64x512.size inb_S8x64x512_S1x64x512_7_0_0)

/-- Row `h` of a stack of eight bias vectors. -/
def bSlice (x : Vec F S8x64 .f32) : Fin 8 → Vec F S1x64 .f32
  | ⟨0, _⟩ => View.ld x (Rect.unit ![0, 0] S1x64.size inb_S8x64_S1x64_0_0)
  | ⟨1, _⟩ => View.ld x (Rect.unit ![1, 0] S1x64.size inb_S8x64_S1x64_1_0)
  | ⟨2, _⟩ => View.ld x (Rect.unit ![2, 0] S1x64.size inb_S8x64_S1x64_2_0)
  | ⟨3, _⟩ => View.ld x (Rect.unit ![3, 0] S1x64.size inb_S8x64_S1x64_3_0)
  | ⟨4, _⟩ => View.ld x (Rect.unit ![4, 0] S1x64.size inb_S8x64_S1x64_4_0)
  | ⟨5, _⟩ => View.ld x (Rect.unit ![5, 0] S1x64.size inb_S8x64_S1x64_5_0)
  | ⟨6, _⟩ => View.ld x (Rect.unit ![6, 0] S1x64.size inb_S8x64_S1x64_6_0)
  | ⟨7, _⟩ => View.ld x (Rect.unit ![7, 0] S1x64.size inb_S8x64_S1x64_7_0)

/-- Slab `h` of the projected keys. -/
def kSlice (x : Vec F S8x2048x64 .bf16) : Fin 8 → Vec F S1x2048x64 .bf16
  | ⟨0, _⟩ => View.ld x (Rect.unit ![0, 0, 0] S1x2048x64.size inb_S8x2048x64_S1x2048x64_0_0_0)
  | ⟨1, _⟩ => View.ld x (Rect.unit ![1, 0, 0] S1x2048x64.size inb_S8x2048x64_S1x2048x64_1_0_0)
  | ⟨2, _⟩ => View.ld x (Rect.unit ![2, 0, 0] S1x2048x64.size inb_S8x2048x64_S1x2048x64_2_0_0)
  | ⟨3, _⟩ => View.ld x (Rect.unit ![3, 0, 0] S1x2048x64.size inb_S8x2048x64_S1x2048x64_3_0_0)
  | ⟨4, _⟩ => View.ld x (Rect.unit ![4, 0, 0] S1x2048x64.size inb_S8x2048x64_S1x2048x64_4_0_0)
  | ⟨5, _⟩ => View.ld x (Rect.unit ![5, 0, 0] S1x2048x64.size inb_S8x2048x64_S1x2048x64_5_0_0)
  | ⟨6, _⟩ => View.ld x (Rect.unit ![6, 0, 0] S1x2048x64.size inb_S8x2048x64_S1x2048x64_6_0_0)
  | ⟨7, _⟩ => View.ld x (Rect.unit ![7, 0, 0] S1x2048x64.size inb_S8x2048x64_S1x2048x64_7_0_0)

/-! ## The two running sums and the two tiles -/

/-- The attention weights of the eight heads for one tile: head `h` from its slices. -/
def heads (q : FVec F S256x512 .f32) (mk : IVec S256x2048 32) (W : Fin 8 → Vec F S1x64x512 .f32) (B : Fin 8 → Vec F S1x64 .f32)
    (Ks : Fin 8 → Vec F S1x2048x64 .bf16) : Fin 8 → FVec F S256x2048 .f32 :=
  fun h => k0_pay24 q mk (W h) (B h) (Ks h)

/-- The running sum of the heads' weights, from zero, in head order. -/
def attnSum (a : Fin 8 → FVec F S256x2048 .f32) : FVec F S256x2048 .f32 :=
  addf (addf (addf (addf (addf (addf (addf (addf k0_pay18 (a 0)) (a 1)) (a 2)) (a 3)) (a 4)) (a 5)) (a 6)) (a 7)

/-- The tile of mean attention weights. -/
def tileW (a : Fin 8 → FVec F S256x2048 .f32) : FVec F S1x256x2048 .f32 :=
  k0_pay1 (mulf (attnSum a) (broadcast S256x2048 (Scalar.ofBits .f32 0x3E000000#32)))

/-- One head's weights times the projected values, added to the running sum. -/
def wvStep (vv : Vec F S2048x64 .bf16) (acc : FVec F S256x64 .f32) (a : FVec F S256x2048 .f32) : FVec F S256x64 .f32 :=
  addf acc (matmul dot_S256x2048_S2048x64_S256x64_1_0_0_1_n_n none (truncf .bf16 a bitsLt_bf16_f32) vv (constant S256x64 .f32 0x00000000#32))

/-- The running sum of weighted values, from zero, in head order. -/
def wvSum (vv : Vec F S2048x64 .bf16) (a : Fin 8 → FVec F S256x2048 .f32) : FVec F S256x64 .f32 :=
  wvStep vv (wvStep vv (wvStep vv (wvStep vv (wvStep vv (wvStep vv (wvStep vv (wvStep vv k0_pay19 (a 0)) (a 1)) (a 2)) (a 3)) (a 4)) (a 5)) (a 6)) (a 7)

/-- The output tile. -/
def tileO (vv : Vec F S2048x64 .bf16) (a : Fin 8 → FVec F S256x2048 .f32) (Wo : Vec F S512x64 .f32) (bo : Vec F S512 .f32) :
    FVec F S1x256x512 .f32 :=
  k0_pay2 (wvSum vv a) Wo bo

/-! ## What case B leaves (the scratch buffers as the point before left them) -/

theorem out_B_13 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : ¬cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) (xs0 : Vec F S8x2048x64 .bf16) (xs1 : Vec F S2048x64 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = tileW (heads (k0_pay16 x0) (k0_pay17 x3) (wSlice x4) (bSlice x5) (kSlice xs0)) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  rw [View.canon_unit_zero hz3]
  simp only [View.readAt_eq_ld, harg2.read_unread, harg5.read_unread, harg6.read_unread, harg7.read_unread, harg16.read_unread,
    View.ld_unit_zero (S := S1x256x512) hz3, View.ld_unit_zero (S := S1x256x2048) hz3]
  rfl

theorem out_B_12 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : ¬cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) (xs0 : Vec F S8x2048x64 .bf16) (xs1 : Vec F S2048x64 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = tileO xs1 (heads (k0_pay16 x0) (k0_pay17 x3) (wSlice x4) (bSlice x5) (kSlice xs0)) x10 x11 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  rw [View.canon_unit_zero hz3]
  simp only [View.readAt_eq_ld, harg2.read_unread, harg5.read_unread, harg6.read_unread, harg7.read_unread, harg12.read_unread,
    harg13.read_unread, harg16.read_unread, harg17.read_unread,
    View.ld_unit_zero (S := S1x256x512) hz3, View.ld_unit_zero (S := S1x256x2048) hz3, View.ld_unit_zero (S := S512x64) hz2,
    View.ld_unit_zero (S := S512) hz1, View.ld_unit_zero (S := S2048x64) hz2]
  rfl

/-! ## What case A leaves (it first fills both scratch buffers from the batch's keys and values) -/

/-- The eight slabs case A stores into the key scratch, last first: slab `h` is the keys projected by head `h`. -/
def kPieces (x1 : Vec F S1x2048x512 .f32) (x6 : Vec F S8x64x512 .f32) (x7 : Vec F S8x64 .f32) :
    List (View.Piece (Elt F) S8x2048x64 .bf16) :=
  [⟨Rect.unit ![7, 0, 0] S1x2048x64.size inb_S8x2048x64_S1x2048x64_7_0_0, k0_pay8 (k0_pay3 x1) (wSlice x6 7) (bSlice x7 7)⟩,
   ⟨Rect.unit ![6, 0, 0] S1x2048x64.size inb_S8x2048x64_S1x2048x64_6_0_0, k0_pay8 (k0_pay3 x1) (wSlice x6 6) (bSlice x7 6)⟩,
   ⟨Rect.unit ![5, 0, 0] S1x2048x64.size inb_S8x2048x64_S1x2048x64_5_0_0, k0_pay8 (k0_pay3 x1) (wSlice x6 5) (bSlice x7 5)⟩,
   ⟨Rect.unit ![4, 0, 0] S1x2048x64.size inb_S8x2048x64_S1x2048x64_4_0_0, k0_pay8 (k0_pay3 x1) (wSlice x6 4) (bSlice x7 4)⟩,
   ⟨Rect.unit ![3, 0, 0] S1x2048x64.size inb_S8x2048x64_S1x2048x64_3_0_0, k0_pay8 (k0_pay3 x1) (wSlice x6 3) (bSlice x7 3)⟩,
   ⟨Rect.unit ![2, 0, 0] S1x2048x64.size inb_S8x2048x64_S1x2048x64_2_0_0, k0_pay8 (k0_pay3 x1) (wSlice x6 2) (bSlice x7 2)⟩,
   ⟨Rect.unit ![1, 0, 0] S1x2048x64.size inb_S8x2048x64_S1x2048x64_1_0_0, k0_pay8 (k0_pay3 x1) (wSlice x6 1) (bSlice x7 1)⟩,
   ⟨Rect.unit ![0, 0, 0] S1x2048x64.size inb_S8x2048x64_S1x2048x64_0_0_0, k0_pay8 (k0_pay3 x1) (wSlice x6 0) (bSlice x7 0)⟩]

theorem sout_A_1 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = k0_pay4 x2 x8 x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero hz2]
  simp only [View.readAt_eq_ld, harg4.read_unread, harg10.read_unread, harg11.read_unread,
    View.ld_unit_zero (S := S1x2048x512) hz3, View.ld_unit_zero (S := S64x512) hz2, View.ld_unit_zero (S := S64) hz1]

theorem run_A_kPieces (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1 = kPieces x1 x6 x7 := by
  unfold kernelRun0_A
  dsimp only
  sl_unfold_words
  simp only [View.readAt_eq_ld, harg3.read_unread, harg8.read_unread, harg9.read_unread, View.ld_unit_zero (S := S1x2048x512) hz3]
  rfl

theorem kPieces_cover (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) (y : S8x2048x64.Idx) :
    ∃ p ∈ kPieces x1 x6 x7, y ∈ p.1.set := by
  have h := scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 y
  rwa [run_A_kPieces] at h

theorem sout_A_0 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = View.canon (kPieces x1 x6 x7) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11), run_A_kPieces]

theorem out_A_13 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = tileW (heads (k0_pay16 x0) (k0_pay17 x3) (wSlice x4) (bSlice x5)
          (kSlice (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11))) := by
  have hs : (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11) = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1 := by
    unfold sout0_A_0
    exact View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)
  have hcov := scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  revert hs hcov
  unfold kernelRun0_A
  dsimp only
  sl_unfold_words
  rw [View.canon_unit_zero hz3]
  simp only [View.readAt_eq_ld, harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x256x512) hz3, View.ld_unit_zero (S := S1x256x2048) hz3, View.ld_unit_zero (S := S1x2048x512) hz3,
    View.ld_unit_zero (S := S512x64) hz2, View.ld_unit_zero (S := S512) hz1, View.ld_unit_zero (S := S64x512) hz2, View.ld_unit_zero (S := S64) hz1]
  intro hs hcov
  simp only [View.readCov_eq_canon_ld _ _ _ hcov]
  rw [← hs]
  generalize (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11) = KS
  rfl

theorem out_A_12 (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x256x2048 .i32) (harg5 : arg5.IsWhole) (arg6 : Memref sig .tc .vmem S8x64x512 .f32) (harg6 : arg6.IsWhole) (arg7 : Memref sig .tc .vmem S8x64 .f32) (harg7 : arg7.IsWhole) (arg8 : Memref sig .tc .vmem S8x64x512 .f32) (harg8 : arg8.IsWhole) (arg9 : Memref sig .tc .vmem S8x64 .f32) (harg9 : arg9.IsWhole) (arg10 : Memref sig .tc .vmem S64x512 .f32) (harg10 : arg10.IsWhole) (arg11 : Memref sig .tc .vmem S64 .f32) (harg11 : arg11.IsWhole) (arg12 : Memref sig .tc .vmem S512x64 .f32) (harg12 : arg12.IsWhole) (arg13 : Memref sig .tc .vmem S512 .f32) (harg13 : arg13.IsWhole) (arg14 : Memref sig .tc .vmem S1x256x512 .f32) (harg14 : arg14.IsWhole) (arg15 : Memref sig .tc .vmem S1x256x2048 .f32) (harg15 : arg15.IsWhole) (arg16 : Memref sig .tc .vmem S8x2048x64 .bf16) (harg16 : arg16.IsWhole) (arg17 : Memref sig .tc .vmem S2048x64 .bf16) (harg17 : arg17.IsWhole) (hc0 : cond0_0 i) (x0 : Vec F S1x256x512 .f32) (x1 : Vec F S1x2048x512 .f32) (x2 : Vec F S1x2048x512 .f32) (x3 : Vec F S1x256x2048 .i32) (x4 : Vec F S8x64x512 .f32) (x5 : Vec F S8x64 .f32) (x6 : Vec F S8x64x512 .f32) (x7 : Vec F S8x64 .f32) (x8 : Vec F S64x512 .f32) (x9 : Vec F S64 .f32) (x10 : Vec F S512x64 .f32) (x11 : Vec F S512 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = tileO (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)
          (heads (k0_pay16 x0) (k0_pay17 x3) (wSlice x4) (bSlice x5) (kSlice (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11))) x10 x11 := by
  rw [sout_A_1]
  have hs : (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11) = View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.2.1 := by
    unfold sout0_A_0
    exact View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)
  have hcov := scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  revert hs hcov
  unfold kernelRun0_A
  dsimp only
  sl_unfold_words
  rw [View.canon_unit_zero hz3]
  simp only [View.readAt_eq_ld, harg2.read_unread, harg3.read_unread, harg4.read_unread, harg5.read_unread, harg6.read_unread, harg7.read_unread,
    harg8.read_unread, harg9.read_unread, harg10.read_unread, harg11.read_unread, harg12.read_unread, harg13.read_unread,
    View.ld_unit_zero (S := S1x256x512) hz3, View.ld_unit_zero (S := S1x256x2048) hz3, View.ld_unit_zero (S := S1x2048x512) hz3,
    View.ld_unit_zero (S := S512x64) hz2, View.ld_unit_zero (S := S512) hz1, View.ld_unit_zero (S := S64x512) hz2, View.ld_unit_zero (S := S64) hz1]
  intro hs hcov
  simp only [View.readCov_eq_canon_ld _ _ _ hcov, View.readCov_unit_zero (S := S2048x64) _ hz2]
  rw [← hs]
  generalize (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11) = KS
  generalize k0_pay4 x2 x8 x9 = VS
  rfl

end Cert.KernelIdeal.Tile

end
-- ==== Proof.KPoint.lean ====
/-
  Every grid point of the attention kernel, whichever of its two control cases it falls in, leaves in the two output
  tiles the tile functions of the heads' weights computed from the point's blocks and from what the key scratch holds
  AFTER the point; the first point of a batch fills both scratch buffers from the batch's keys and values, every other
  point keeps what the point before left.
-/
import proofs.«150527_j89386859364957_1_alg».proof.Proof.KTile

set_option maxRecDepth 16384

noncomputable section

namespace Cert.KernelIdeal.Point

open Cert.KernelIdeal Cert.KernelIdeal.Gen Cert.KernelIdeal.Tile Idealize.ShloMosaic Idealize.ShloMosaic.TcCoe

variable {F : FTy → Type} [FloatOps F]
variable (m : (ℓ : Loc nD τ sig) → Buf (Elt F) ℓ)

/-- The tile of mean attention weights after point `t`. -/
theorem tile13 (c : Dev nD) (t : Fin cfg0.N) :
    (outsAt0 m c t.val t.isLt).2.1 = tileW (heads (k0_pay16 (iblk m c 0 t)) (k0_pay17 (iblk m c 3 t)) (wSlice (iblk m c 4 t)) (bSlice (iblk m c 5 t)) (kSlice (outsAt0 m c t.val t.isLt).2.2.1)) := by
  by_cases h0 : t.val % 8 = 0
  · rw [outsAt0_A m c t h0]; dsimp only
    exact out_A_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  · rw [outsAt0_B m c t h0]; dsimp only
    exact out_B_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The output tile after point `t`. -/
theorem tile12 (c : Dev nD) (t : Fin cfg0.N) :
    (outsAt0 m c t.val t.isLt).1 = tileO (outsAt0 m c t.val t.isLt).2.2.2 (heads (k0_pay16 (iblk m c 0 t)) (k0_pay17 (iblk m c 3 t)) (wSlice (iblk m c 4 t)) (bSlice (iblk m c 5 t)) (kSlice (outsAt0 m c t.val t.isLt).2.2.1)) (iblk m c 10 t) (iblk m c 11 t) := by
  by_cases h0 : t.val % 8 = 0
  · rw [outsAt0_A m c t h0]; dsimp only
    exact out_A_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  · rw [outsAt0_B m c t h0]; dsimp only
    exact out_B_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first point of a batch stores the eight projected key slabs. -/
theorem scratchK_first (c : Dev nD) (t : Fin cfg0.N) (h0 : t.val % 8 = 0) :
    (outsAt0 m c t.val t.isLt).2.2.1 = View.canon (kPieces (iblk m c 1 t) (iblk m c 6 t) (iblk m c 7 t)) := by
  rw [outsAt0_A m c t h0]; dsimp only
  exact sout_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The first point of a batch stores the projected values. -/
theorem scratchV_first (c : Dev nD) (t : Fin cfg0.N) (h0 : t.val % 8 = 0) :
    (outsAt0 m c t.val t.isLt).2.2.2 = k0_pay4 (iblk m c 2 t) (iblk m c 8 t) (iblk m c 9 t) := by
  rw [outsAt0_A m c t h0]; dsimp only
  exact sout_A_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- Every other point keeps both scratch buffers. -/
theorem scratch_kept (c : Dev nD) (t : Fin cfg0.N) (h0 : ¬t.val % 8 = 0) :
    (outsAt0 m c t.val t.isLt).2.2.1 = (outsAt0 m c (t.val - 1) (Nat.lt_of_le_of_lt (Nat.sub_le _ _) t.isLt)).2.2.1 ∧ (outsAt0 m c t.val t.isLt).2.2.2 = (outsAt0 m c (t.val - 1) (Nat.lt_of_le_of_lt (Nat.sub_le _ _) t.isLt)).2.2.2 := by
  rw [outsAt0_B m c t h0]; exact ⟨rfl, rfl⟩

end Cert.KernelIdeal.Point

end
-- ==== Proof.AttnLaws.lean ====
/-
  Laws of the extended reals used to compare two arrangements of the attention layer.

  * Real numbers are closed under sums, products, differences and the mask, so a score computed from real
    inputs is real; the largest entry of a nonempty row is one of its entries, hence real too.
  * A softmax row of real scores is nonnegative: each shifted exponential is a positive real, so the row's
    sum is positive and the quotient is a product of nonnegatives.
  * The extended reals distribute a product over a sum of NONNEGATIVE terms (not over terms of mixed sign,
    where `⊤ + ⊥` would appear), which is what lets the sum over the heads move across the product with the values.
  * The float words the two programs spell: `0.125` is one eighth, `8.0` is eight (so dividing by it is the
    product with one eighth), `-inf` is the bottom element, `+0.0` is zero, and `-1e9` is a real number.
-/
import proofs.«150527_j89386859364957_1_alg».proof.Proof.AttnSpec

noncomputable section

open scoped BigOperators

namespace Cert.Attn

open Idealize.ShloMosaic

/-! ## Real numbers inside the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    exact (h _ (Finset.mem_insert_self _ _)).add (ih fun i hi => h i (Finset.mem_insert_of_mem hi))

theorem isReal_eighth : IsReal eighth := ⟨_, rfl⟩

/-! ## The float words -/

/-- The word `0.125` is one eighth. -/
theorem ofBits_eighth : Ideal.ofBits .f32 0x3E000000#32 = eighth := by
  simp [Ideal.ofBits, Ideal.ieee, eighth, -EReal.coe_mul]; norm_num

/-- The word `8.0` is the real eight. -/
theorem ofBits_eight : Ideal.ofBits .f32 0x41000000#32 = ((8 : ℝ) : EReal) := by
  simp [Ideal.ofBits, Ideal.ieee, -EReal.coe_mul]; norm_num

/-- The word `-inf` is the bottom element. -/
theorem ofBits_neg_inf : Ideal.ofBits .f32 0xFF800000#32 = ⊥ := by
  simp [Ideal.ofBits, Ideal.ieee]

/-- Dividing by the word `8.0` is the product with one eighth, on every extended real. -/
theorem div_eight (x : EReal) : Ideal.div x (Ideal.ofBits .f32 0x41000000#32) = x * eighth := by
  rw [ofBits_eight, Ideal.div_coe (by norm_num : (8 : ℝ) ≠ 0)]; rfl

/-- The word `-1e9` is a real number. -/
theorem isReal_NEG : IsReal NEG := by
  unfold NEG
  simp [Ideal.ofBits, Ideal.ieee, -EReal.coe_mul]
  exact ⟨_, rfl⟩

theorem isReal_masked (mk : BitVec 32) {x : EReal} (hx : IsReal x) : IsReal (Cert.Attn.masked mk x) := by
  unfold Cert.Attn.masked Scalar.select
  split_ifs
  · exact isReal_NEG
  · exact hx

/-! ## The row maximum and the softmax -/

/-- The largest entry of a nonempty row is one of its entries. -/
theorem rowMax_mem {n : ℕ} (s : Fin n → EReal) (t : Fin n) : ∃ u, rowMax s = s u := by
  obtain ⟨u, -, hu⟩ := Finset.exists_mem_eq_sup (Finset.univ : Finset (Fin n)) ⟨t, Finset.mem_univ t⟩ s
  exact ⟨u, hu⟩

theorem exp_nonneg (x : EReal) : 0 ≤ Ideal.exp x := by
  induction x using EReal.rec with
  | bot => exact le_refl _
  | top => exact le_top
  | coe r => exact EReal.coe_nonneg.mpr (Real.exp_pos r).le

theorem exp_pos_of_isReal {x : EReal} (h : IsReal x) : 0 < Ideal.exp x := by
  obtain ⟨r, rfl⟩ := h; exact EReal.coe_pos.mpr (Real.exp_pos r)

/-- A softmax row of real scores is nonnegative. -/
theorem softmax_nonneg {n : ℕ} (s : Fin n → EReal) (hs : ∀ u, IsReal (s u)) (t : Fin n) : 0 ≤ softmax s t := by
  obtain ⟨u0, hu0⟩ := rowMax_mem s t
  have hm : IsReal (rowMax s) := hu0 ▸ hs u0
  have hden : 0 < ∑ u : Fin n, Ideal.exp (s u - rowMax s) :=
    lt_of_lt_of_le (exp_pos_of_isReal ((hs t).sub hm))
      (Finset.single_le_sum (f := fun u => Ideal.exp (s u - rowMax s)) (fun i _ => exp_nonneg _) (Finset.mem_univ t))
  unfold softmax Ideal.div
  rw [if_neg hden.ne']
  exact mul_nonneg (exp_nonneg _) (EReal.inv_nonneg_of_nonneg hden.le)

/-! ## A product distributes over a sum of nonnegatives -/

theorem sum_mul_of_nonneg {ι : Type*} (S : Finset ι) (a : ι → EReal) (c : EReal) (ha : ∀ i ∈ S, 0 ≤ a i) :
    (∑ i ∈ S, a i) * c = ∑ i ∈ S, a i * c := by
  classical
  induction S using Finset.induction_on with
  | empty => simp
  | insert j S hj ih =>
    rw [Finset.sum_insert hj, Finset.sum_insert hj,
      EReal.right_distrib_of_nonneg (ha j (Finset.mem_insert_self _ _))
        (Finset.sum_nonneg fun i hi => ha i (Finset.mem_insert_of_mem hi)),
      ih fun i hi => ha i (Finset.mem_insert_of_mem hi)]

/-- The sum over the heads taken after the product with the values is the product with the summed heads. -/
theorem sum_heads_mul {H T : Type*} [Fintype H] [Fintype T] (a : H → T → EReal) (v : T → EReal)
    (ha : ∀ h t, 0 ≤ a h t) : ∑ h, ∑ t, a h t * v t = ∑ t, (∑ h, a h t) * v t := by
  rw [Finset.sum_comm]
  exact Finset.sum_congr rfl fun t _ => (sum_mul_of_nonneg _ _ _ fun h _ => ha h t).symm

/-! ## The scores of real inputs are real, so the attention weights are nonnegative -/

section Arrays

variable (Q Kx : (⟨3, ![4, 2048, 512]⟩ : Shape).Idx → EReal) (M : (⟨3, ![4, 2048, 2048]⟩ : Shape).Idx → BitVec 32)
  (Wq : (⟨3, ![8, 64, 512]⟩ : Shape).Idx → EReal) (bq : (⟨2, ![8, 64]⟩ : Shape).Idx → EReal)
  (Wk : (⟨3, ![8, 64, 512]⟩ : Shape).Idx → EReal) (bk : (⟨2, ![8, 64]⟩ : Shape).Idx → EReal)

theorem isReal_headProj (X : (⟨3, ![4, 2048, 512]⟩ : Shape).Idx → EReal) (W : (⟨3, ![8, 64, 512]⟩ : Shape).Idx → EReal)
    (bb : (⟨2, ![8, 64]⟩ : Shape).Idx → EReal) (hX : ∀ i, IsReal (X i)) (hW : ∀ i, IsReal (W i)) (hb : ∀ i, IsReal (bb i))
    (b : Fin 4) (h : Fin 8) (s : Fin 2048) (e : Fin 64) : IsReal (headProj X W bb b h s e) :=
  (IsReal.sum _ _ fun d _ => (hX _).mul (hW _)).add (hb _)

theorem isReal_score (hQ : ∀ i, IsReal (Q i)) (hK : ∀ i, IsReal (Kx i)) (hWq : ∀ i, IsReal (Wq i)) (hbq : ∀ i, IsReal (bq i))
    (hWk : ∀ i, IsReal (Wk i)) (hbk : ∀ i, IsReal (bk i)) (b : Fin 4) (h : Fin 8) (s t : Fin 2048) :
    IsReal (score Q Kx M Wq bq Wk bk b h s t) :=
  isReal_masked _ ((IsReal.sum _ _ fun e _ =>
    (isReal_headProj Q Wq bq hQ hWq hbq b h s e).mul (isReal_headProj Kx Wk bk hK hWk hbk b h t e)).mul isReal_eighth)

/-- The attention weights of real inputs are nonnegative. -/
theorem attn_nonneg (hQ : ∀ i, IsReal (Q i)) (hK : ∀ i, IsReal (Kx i)) (hWq : ∀ i, IsReal (Wq i)) (hbq : ∀ i, IsReal (bq i))
    (hWk : ∀ i, IsReal (Wk i)) (hbk : ∀ i, IsReal (bk i)) (b : Fin 4) (h : Fin 8) (s t : Fin 2048) :
    0 ≤ attn Q Kx M Wq bq Wk bk b h s t :=
  softmax_nonneg _ (fun u => isReal_score Q Kx M Wq bq Wk bk hQ hK hWq hbq hWk hbk b h s u) t

end Arrays

end Cert.Attn

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibDenseT.lean ====
/-
  A linear layer with the weight matrix stored output-major, read at an entry, generic in the sizes.

  The weights `W` are a `B × K` matrix (one row per output); the layer multiplies an `A × K` matrix `x` by the
  transpose of `W`. Entry `(r, j)` of the product is the sum over `k` of `x (r, k) · W (j, k)`: for the matrix
  unit's product into a zero accumulator (`matmulT_zero_apply`) and for the host's product (`dotT_apply`), over the
  extended reals, at any precision attribute and any float formats of the operands. With a bias row added, the entry
  is that sum plus the bias at `j`: the bias a one-row matrix broadcast down the rows (`matmulT_rowBias_apply`), or a
  vector broadcast to one row and then down the rows (`dotT_vecBias_apply`).
-/
import proofs.«150527_j89386859364957_1_alg».proof.Proof.LibContractPlain
import Idealize.ShloMosaic.Lib.ValueLayout
import Idealize.ShloMosaic.Lib.Pipeline.Value

noncomputable section

open scoped BigOperators

namespace Cert.LibDenseT

open Idealize.ShloMosaic Idealize.ShloMosaic.ValueIdx Cert.LibContractPlain

/-- The matrix unit's product of `x` by the transposed weights, into a zero accumulator, at `(r, j)`. -/
theorem matmulT_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    FloatOps.matmul (plainDims A K B wf) prec x (transpose ⟨2, ![K, B]⟩ [1, 0] W hT)
        (constant (F := Ideal) ⟨2, ![A, B]⟩ .f32 0x00000000#32) (ix2 r j)
      = ∑ k : Fin K, x (ix2 r k) * W (ix2 j k) := by
  rw [matmulPlain_zero_apply]
  refine Finset.sum_congr rfl fun k _ => ?_
  rw [transpose_ix2_apply]

/-- The host's product of `x` by the transposed weights, at `(r, j)`. -/
theorem dotT_apply {φ₁ φ₂ : FTy} (A K B : Nat)
    (wf : DotDims.WF ⟨2, ![A, K]⟩ ⟨2, ![K, B]⟩ ⟨2, ![A, B]⟩ [1] [0] [0] [1] [] [])
    (prec : Option ContractPrecision)
    (x : FVec Ideal ⟨2, ![A, K]⟩ φ₁) (W : FVec Ideal ⟨2, ![B, K]⟩ φ₂)
    (hT : (⟨2, ![B, K]⟩ : Shape).Transposes [1, 0] ⟨2, ![K, B]⟩) (r : Fin A) (j : Fin B) :
    Host.dotGeneral (plainDims A K B wf) prec x (transpose ⟨2, ![K, B]⟩ [1, 0] W hT) (ix2 r j)
      = ∑ k : Fin K, x (ix2 r k) * W (ix2 j k) := by
  rw [dotPlain_apply]
  refine Finset.sum_congr rfl fun k _ => ?_
  rw [transpose_ix2_apply]

/-- A one-row matrix broadcast down `A` rows reads, at `(r, j)`, the row's entry `j`. -/
theorem rowDown_apply {α : Type} {A B : Nat} (b : (⟨2, ![1, B]⟩ : Shape).Idx → α)
    (h : (⟨2, ![1, B]⟩ : Shape).Broadcasts ⟨2, ![A, B]⟩) (r : Fin A) (j : Fin B) :
    broadcastTo ⟨2, ![A, B]⟩ b h (ix2 r j) = b (ix2 (0 : Fin 1) j) :=
  broadcastTo_1b_ab_apply b h r j

/-- A vector broadcast to one row and then down `A` rows reads, at `(r, j)`, the vector's entry `j`. -/
theorem vecDown_apply {α : Type} {A B : Nat} (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (r : Fin A) (j : Fin B) :
    broadcastInDim ⟨2, ![A, B]⟩ ![0, 1] h2 (broadcastInDim ⟨2, ![1, B]⟩ ![1] h1 b) (ix2 r j) = b (ix1 j) := by
  refine (broadcastInDim_apply _ h2 _ (ix2 r j) (ix2 (0 : Fin 1) j) (fun c => match c with
    | ⟨0, _⟩ => by
      show 0 = if (1 : Nat) = 1 then 0 else r.val
      rw [if_pos rfl]
    | ⟨1, _⟩ => by
      show j.val = if B = 1 then 0 else j.val
      split
      · have := j.isLt; omega
      · rfl)).trans ?_
  exact broadcastInDim_apply _ h1 b (ix2 (0 : Fin 1) j) (ix1 j) (fun c => match c with
    | ⟨0, _⟩ => by
      show j.val = if B = 1 then 0 else j.val
      split
      · have := j.isLt; omega
      · rfl)

/-- A vector reshaped to one row reads, at `(0, j)`, the vector's entry `j`. -/
theorem vecAsRow_apply {α : Type} {B : Nat} (b : (⟨1, ![B]⟩ : Shape).Idx → α)
    (h : (⟨1, ![B]⟩ : Shape).ShapeCasts ⟨2, ![1, B]⟩) (u : Fin 1) (j : Fin B) :
    shapeCast ⟨2, ![1, B]⟩ b h (ix2 u j) = b (ix1 j) :=
  shapeCast_apply b h _ _ (by
    have hu : u.val = 0 := by omega
    rw [Shape.rowMajor_val_two, Shape.rowMajor_val_one]
    show j.val = u.val * B + j.val
    rw [hu, Nat.zero_mul, Nat.zero_add])

end Cert.LibDenseT

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.HeadRead.lean ====
/-
  The values one attention head computes on a tile, each read at an index on the extended reals.

  * A block with a leading unit axis viewed as a matrix reads the block at (0, ·, ·).
  * A projection x · Wᵀ + b with the weights stored one row per output: entry (t, e) is Σ_d x(t, d) · W(e, d) + b(e);
    on the extended reals the narrowing of the result to a shorter float format changes nothing.
  * One attention head on a tile of 256 query rows: the scores Σ_e q'(r, e) · k(t, e) of the projected queries against
    the projected keys, times one eighth, replaced by -1e9 where the mask word is zero; then, row by row, the
    exponential of each score less the row's largest, divided by the row's sum of these: the softmax of the row.
-/
import proofs.«150527_j89386859364957_1_alg».proof.Proof.Gen.KernelIdeal.Skeleton
import proofs.«150527_j89386859364957_1_alg».proof.Proof.AttnLaws
import proofs.«150527_j89386859364957_1_alg».proof.Proof.LibDenseT
import proofs.«150527_j89386859364957_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HeadRead

open Cert.KernelIdeal Cert.KernelIdeal.Gen Idealize.ShloMosaic Idealize.ShloMosaic.ValueIdx

/-- A [1, 2048, 512] block viewed as a matrix reads the block at (0, t, d). -/
theorem pay3_apply (x : Vec Ideal S1x2048x512 .f32) (t : Fin 2048) (d : Fin 512) :
    k0_pay3 (F := Ideal) x (ix2 t d) = x (ix3 (0 : Fin 1) t d) :=
  shapeCast_1ab_ab_apply x _ t d

/-- A [1, 256, 512] block viewed as a matrix reads the block at (0, r, d). -/
theorem pay16_apply (x : Vec Ideal S1x256x512 .f32) (r : Fin 256) (d : Fin 512) :
    k0_pay16 (F := Ideal) x (ix2 r d) = x (ix3 (0 : Fin 1) r d) :=
  shapeCast_1ab_ab_apply x _ r d

/-- A [1, 256, 2048] block of words viewed as a matrix reads the block at (0, r, t). -/
theorem pay17_apply (x : Vec Ideal S1x256x2048 .i32) (r : Fin 256) (t : Fin 2048) :
    k0_pay17 (F := Ideal) x (ix2 r t) = x (ix3 (0 : Fin 1) r t) :=
  shapeCast_1ab_ab_apply x _ r t

/-- The value projection at (t, e): row t of the block against row e of the weights, plus the bias at e. -/
theorem pay4_apply (x : Vec Ideal S1x2048x512 .f32) (w : Vec Ideal S64x512 .f32) (bb : Vec Ideal S64 .f32)
    (t : Fin 2048) (e : Fin 64) :
    k0_pay4 (F := Ideal) x w bb (ix2 t e)
      = (∑ d : Fin 512, x (ix3 (0 : Fin 1) t d) * w (ix2 e d)) + bb (ix1 e) := by
  unfold k0_pay4
  refine (congrFun (shapeCast_self _ _) (ix2 t e)).trans ?_
  refine congrArg₂ (fun a b : EReal => a + b) ?_ ?_
  · refine (Cert.LibDenseT.matmulT_zero_apply 2048 512 64 _ none _ w _ t e).trans ?_
    exact Finset.sum_congr rfl fun d _ => congrArg (fun a : EReal => a * w (ix2 e d)) (shapeCast_1ab_ab_apply x _ t d)
  · exact (Cert.LibDenseT.rowDown_apply _ _ t e).trans (shapeCast_a_1a_apply bb _ (0 : Fin 1) e)

/-- The key projection of one head at (0, t, e): row t of x against row e of that head's weights, plus its bias at e. -/
theorem pay8_apply (x : FVec Ideal S2048x512 .f32) (w : Vec Ideal S1x64x512 .f32) (bb : Vec Ideal S1x64 .f32)
    (t : Fin 2048) (e : Fin 64) :
    k0_pay8 (F := Ideal) x w bb (ix3 (0 : Fin 1) t e)
      = (∑ d : Fin 512, x (ix2 t d) * w (ix3 (0 : Fin 1) e d)) + bb (ix2 (0 : Fin 1) e) := by
  unfold k0_pay8
  refine (shapeCast_ab_1ab_apply _ _ (0 : Fin 1) t e).trans ?_
  refine congrArg₂ (fun a b : EReal => a + b) ?_ ?_
  · refine (Cert.LibDenseT.matmulT_zero_apply 2048 512 64 _ none x _ _ t e).trans ?_
    exact Finset.sum_congr rfl fun d _ => congrArg (fun a : EReal => x (ix2 t d) * a) (shapeCast_1ab_ab_apply w _ e d)
  · refine (Cert.LibDenseT.rowDown_apply _ _ t e).trans ?_
    refine (shapeCast_a_1a_apply _ _ (0 : Fin 1) e).trans ?_
    exact shapeCast_1a_a_apply bb _ e

/-- Row index r of a [256, 2048] matrix with the column k put back is the index (r, k). -/
theorem lift_row (h : S256x2048.Reduces [1] S256) (r : Fin 256) (k : Fin 2048) :
    h.lift (ix1 r) k = ix2 r k := by
  funext c
  apply Fin.ext
  match c with
  | ⟨0, _⟩ => rfl
  | ⟨1, _⟩ => rfl

/-- The row maximum, kept as a column and repeated along the row, reads at (r, t) the largest entry of row r. -/
theorem rowMax_bcast_apply (S : FVec Ideal S256x2048 .f32) (hR : S256x2048.Reduces [1] S256) (hφ : FKind.Formats .f32)
    (hm : (0xFF800000#32 : BitVec FTy.f32.bits) = FKind.maximumf.neutral .f32 hφ)
    (hc : S256.ShapeCasts S256x1) (hb : S256x1.Broadcasts S256x2048) (r : Fin 256) (t : Fin 2048) :
    broadcastTo S256x2048 (shapeCast S256x1 (multiReduction .maximumf [1] S256 S 0xFF800000#32 hR hφ hm) hc) hb (ix2 r t)
      = Cert.Attn.rowMax (fun u : Fin 2048 => S (ix2 r u)) := by
  refine (Cert.Attn.Layout.broadcastTo_a1_ab_apply _ hb r t).trans ?_
  refine (Cert.Attn.Layout.shapeCast_a_a1_apply _ hc r (0 : Fin 1)).trans ?_
  refine (Ideal.multiReduction_maximumf_single S _ hR hφ hm (ix1 r)).trans ?_
  show Finset.fold max (Ideal.ofBits .f32 0xFF800000#32) (S ∘ hR.lift (ix1 r)) Finset.univ
    = Finset.fold max ⊥ (fun u : Fin 2048 => S (ix2 r u)) Finset.univ
  rw [Cert.Attn.ofBits_neg_inf]
  congr 1
  funext u
  exact congrArg S (lift_row hR r u)

/-- Exponentials of a matrix's entries less their row's maximum, divided by their row sums: the softmax of each row. -/
theorem softmax_tail (S : FVec Ideal S256x2048 .f32) (hR : S256x2048.Reduces [1] S256) (hφ : FKind.Formats .f32)
    (hm : (0xFF800000#32 : BitVec FTy.f32.bits) = FKind.maximumf.neutral .f32 hφ)
    (ha : (0x00000000#32 : BitVec FTy.f32.bits) = FKind.add.neutral .f32 hφ)
    (hc : S256.ShapeCasts S256x1) (hb : S256x1.Broadcasts S256x2048) (r : Fin 256) (t : Fin 2048) :
    divf (exp (subf S (broadcastTo S256x2048 (shapeCast S256x1 (multiReduction .maximumf [1] S256 S 0xFF800000#32 hR hφ hm) hc) hb)))
        (broadcastTo S256x2048 (shapeCast S256x1 (multiReduction .add [1] S256
          (exp (subf S (broadcastTo S256x2048 (shapeCast S256x1 (multiReduction .maximumf [1] S256 S 0xFF800000#32 hR hφ hm) hc) hb)))
          0x00000000#32 hR hφ ha) hc) hb) (ix2 r t)
      = Cert.Attn.softmax (fun u : Fin 2048 => S (ix2 r u)) t := by
  unfold Cert.Attn.softmax
  refine congrArg₂ Ideal.div
    (congrArg (fun m : EReal => Ideal.exp (S (ix2 r t) - m)) (rowMax_bcast_apply S hR hφ hm hc hb r t)) ?_
  refine (Cert.Attn.Layout.broadcastTo_a1_ab_apply _ hb r t).trans ?_
  refine (Cert.Attn.Layout.shapeCast_a_a1_apply _ hc r (0 : Fin 1)).trans ?_
  refine (Ideal.multiReduction_add_single _ _ hR hφ ha (ix1 r)).trans ?_
  refine Finset.sum_congr rfl fun k _ => ?_
  refine (congrArg (exp (subf S (broadcastTo S256x2048 (shapeCast S256x1
    (multiReduction .maximumf [1] S256 S 0xFF800000#32 hR hφ hm) hc) hb))) (lift_row hR r k)).trans ?_
  exact congrArg (fun m : EReal => Ideal.exp (S (ix2 r k) - m)) (rowMax_bcast_apply S hR hφ hm hc hb r k)

/-- One attention head on a tile of query rows, at (r, t): the softmax over the key rows of the masked, scaled
    products of the projected query row r with the projected key rows. -/
theorem pay24_apply (q : FVec Ideal S256x512 .f32) (mk : IVec S256x2048 32) (w : Vec Ideal S1x64x512 .f32)
    (bb : Vec Ideal S1x64 .f32) (kk : Vec Ideal S1x2048x64 .bf16) (r : Fin 256) (t : Fin 2048) :
    k0_pay24 (F := Ideal) q mk w bb kk (ix2 r t)
      = Cert.Attn.softmax (fun t' : Fin 2048 => Cert.Attn.masked (mk (ix2 r t'))
          ((∑ e : Fin 64, ((∑ d : Fin 512, q (ix2 r d) * w (ix3 (0 : Fin 1) e d)) + bb (ix2 (0 : Fin 1) e))
            * kk (ix3 (0 : Fin 1) t' e)) * Cert.Attn.eighth)) t := by
  unfold k0_pay24
  refine (softmax_tail _ _ _ _ _ _ _ r t).trans ?_
  refine congrArg (fun s : Fin 2048 → EReal => Cert.Attn.softmax s t) (funext fun t' => ?_)
  refine congrArg (Scalar.select (IntOp.cmpi .eq (mk (ix2 r t')) 0#32) Cert.Attn.NEG) ?_
  refine congrArg₂ (fun a b : EReal => a * b) ?_ Cert.Attn.ofBits_eighth
  refine (Cert.LibDenseT.matmulT_zero_apply 256 64 2048 _ none _ _ _ r t').trans ?_
  refine Finset.sum_congr rfl fun e _ => congrArg₂ (fun a b : EReal => a * b) ?_ (shapeCast_1ab_ab_apply kk _ t' e)
  refine congrArg₂ (fun a b : EReal => a + b) ?_ ?_
  · refine (Cert.LibDenseT.matmulT_zero_apply 256 512 64 _ none q _ _ r e).trans ?_
    exact Finset.sum_congr rfl fun d _ => congrArg (fun a : EReal => q (ix2 r d) * a) (shapeCast_1ab_ab_apply w _ e d)
  · refine (Cert.LibDenseT.rowDown_apply _ _ r e).trans ?_
    refine (shapeCast_a_1a_apply _ _ (0 : Fin 1) e).trans ?_
    exact shapeCast_1a_a_apply bb _ e

end Cert.KernelIdeal.HeadRead

end
-- ==== Proof.TileRead.lean ====
/-
  The tile functions of one grid point of the attention kernel, read at an index.

  * Slicing a stack of eight arrays by head: block h of the stack reads, at (0, ·), the stack at (h, ·).
  * The key buffer is filled by eight writes, one slab per head; an index (h, t, e) lies in slab h alone, so the
    contents there are what head h wrote: the keys projected by head h, at (t, e).
  * The tile of mean attention weights is the sum over the heads of their weights, times one eighth.
  * The output tile: the heads' weights against the projected values, summed over the heads (a running sum from zero,
    one matrix product per head), times one eighth, through the output projection x · Woᵀ + bo.
-/
import proofs.«150527_j89386859364957_1_alg».proof.Proof.KTile
import proofs.«150527_j89386859364957_1_alg».proof.Proof.HeadRead
import proofs.«150527_j89386859364957_1_alg».proof.Proof.AttnLaws
import proofs.«150527_j89386859364957_1_alg».proof.Proof.LibContractPlain
import proofs.«150527_j89386859364957_1_alg».proof.Proof.LibDenseT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.TileRead

open Cert.KernelIdeal Cert.KernelIdeal.Gen Cert.KernelIdeal.Tile Idealize.ShloMosaic Idealize.ShloMosaic.ValueIdx

variable {F : FTy → Type} [FloatOps F]

/-- A load through a unit-stride block reads, at the block's local index j, the array at offset + j. -/
theorem ld_unit_apply {Val : EltTy → Type} {s : Shape} {el : EltTy} (X : s.Idx → Val el) (off size : Fin s.rank → Nat)
    (inb : ∀ a, off a + size a ≤ s.size a) (j : (Rect.unit off size inb).shape.Idx) (k : s.Idx)
    (hk : ∀ a, (k a).val = off a + (j a).val) : View.ld X (Rect.unit off size inb) j = X k :=
  congrArg X (funext fun a => Fin.ext (by
    show off a + 1 * (j a).val = (k a).val
    rw [hk a, Nat.one_mul]))

/-- Row block h of the eight weight matrices reads, at (0, e, d), the stack at (h, e, d). -/
theorem wSlice_apply (x : Vec F S8x64x512 .f32) (h : Fin 8) (e : Fin 64) (d : Fin 512) :
    wSlice x h (ix3 (0 : Fin 1) e d) = x (ix3 h e d) := by
  fin_cases h <;>
    exact ld_unit_apply x _ _ _ (ix3 (0 : Fin 1) e d) _ (fun a => match a with
      | ⟨0, _⟩ => rfl | ⟨1, _⟩ => (Nat.zero_add _).symm | ⟨2, _⟩ => (Nat.zero_add _).symm)

/-- Row h of the eight bias vectors reads, at (0, e), the stack at (h, e). -/
theorem bSlice_apply (x : Vec F S8x64 .f32) (h : Fin 8) (e : Fin 64) :
    bSlice x h (ix2 (0 : Fin 1) e) = x (ix2 h e) := by
  fin_cases h <;>
    exact ld_unit_apply x _ _ _ (ix2 (0 : Fin 1) e) _ (fun a => match a with
      | ⟨0, _⟩ => rfl | ⟨1, _⟩ => (Nat.zero_add _).symm)

/-- Slab h of the projected keys reads, at (0, t, e), the stack at (h, t, e). -/
theorem kSlice_apply (x : Vec F S8x2048x64 .bf16) (h : Fin 8) (t : Fin 2048) (e : Fin 64) :
    kSlice x h (ix3 (0 : Fin 1) t e) = x (ix3 h t e) := by
  fin_cases h <;>
    exact ld_unit_apply x _ _ _ (ix3 (0 : Fin 1) t e) _ (fun a => match a with
      | ⟨0, _⟩ => rfl | ⟨1, _⟩ => (Nat.zero_add _).symm | ⟨2, _⟩ => (Nat.zero_add _).symm)

/-! ## The eight slabs of projected keys -/

/-- Slab h lies inside the key buffer. -/
theorem slab_inb (k : Fin 8) : ∀ a, (![k.val, 0, 0] : Fin 3 → Nat) a + S1x2048x64.size a ≤ S8x2048x64.size a :=
  fun a => match a with
    | ⟨0, _⟩ => (show k.val + 1 ≤ 8 from k.isLt)
    | ⟨1, _⟩ => (show 0 + 2048 ≤ 2048 from Nat.le_of_eq (Nat.zero_add _))
    | ⟨2, _⟩ => (show 0 + 64 ≤ 64 from Nat.le_of_eq (Nat.zero_add _))

/-- An index of slab h is outside slab m when h is not m: its first coordinate is h, the slab's are m alone. -/
theorem not_mem_slab (m : Nat) (inb : ∀ a, (![m, 0, 0] : Fin 3 → Nat) a + S1x2048x64.size a ≤ S8x2048x64.size a)
    (h : Fin 8) (t : Fin 2048) (e : Fin 64) (hne : h.val ≠ m) :
    ix3 h t e ∉ (Rect.unit (s := S8x2048x64) ![m, 0, 0] S1x2048x64.size inb).set := by
  intro hm
  have h0 := Rect.mem_set_unit.mp hm (0 : Fin 3)
  have h1 : m ≤ h.val ∧ h.val < m + 1 := h0
  omega

/-- Slab m holds, at its local index (0, t, e), the index (m, t, e). -/
theorem slab_emb (m : Nat) (inb : ∀ a, (![m, 0, 0] : Fin 3 → Nat) a + S1x2048x64.size a ≤ S8x2048x64.size a)
    (h : Fin 8) (t : Fin 2048) (e : Fin 64) (hm : h.val = m) :
    (Rect.unit (s := S8x2048x64) ![m, 0, 0] S1x2048x64.size inb).emb (ix3 (0 : Fin 1) t e) = ix3 h t e :=
  funext fun a => Fin.ext (match a with
    | ⟨0, _⟩ => by show m + 1 * 0 = h.val; omega
    | ⟨1, _⟩ => by show 0 + 1 * t.val = t.val; omega
    | ⟨2, _⟩ => by show 0 + 1 * e.val = e.val; omega)

/-- Under the last write, at an index its block holds, the contents are the write's value there. -/
theorem canon_hit {Val : EltTy → Type} [∀ el, Nonempty (Val el)] {s : Shape} {el : EltTy} (r : Rect s)
    (w : r.shape.Idx → Val el) (L : List (View.Piece Val s el)) (x : r.shape.Idx) (y : s.Idx) (hy : r.emb x = y) :
    View.canon (⟨r, w⟩ :: L) y = w x :=
  hy ▸ View.canon_cons_emb r w L x

/-- The write of head k's projected keys into slab k. -/
abbrev slab (x1 : Vec F S1x2048x512 .f32) (x6 : Vec F S8x64x512 .f32) (x7 : Vec F S8x64 .f32) (k : Fin 8) :
    View.Piece (Elt F) S8x2048x64 .bf16 :=
  ⟨Rect.unit ![k.val, 0, 0] S1x2048x64.size (slab_inb k), k0_pay8 (k0_pay3 x1) (wSlice x6 k) (bSlice x7 k)⟩

/-- Under a last write into slab h, the contents at (h, t, e) are head h's projected keys at (t, e). -/
theorem canon_slab_hit (x1 : Vec F S1x2048x512 .f32) (x6 : Vec F S8x64x512 .f32) (x7 : Vec F S8x64 .f32)
    (t : Fin 2048) (e : Fin 64) (h : Fin 8) (L : List (View.Piece (Elt F) S8x2048x64 .bf16)) :
    View.canon (slab x1 x6 x7 h :: L) (ix3 h t e)
      = k0_pay8 (k0_pay3 x1) (wSlice x6 h) (bSlice x7 h) (ix3 (0 : Fin 1) t e) :=
  canon_hit (Val := Elt F) (el := .bf16) (Rect.unit (s := S8x2048x64) ![h.val, 0, 0] S1x2048x64.size (slab_inb h))
    (k0_pay8 (k0_pay3 x1) (wSlice x6 h) (bSlice x7 h)) L (ix3 (0 : Fin 1) t e) (ix3 h t e)
    (slab_emb h.val (slab_inb h) h t e rfl)

/-- A last write into another head's slab leaves the contents at (h, t, e) as they were. -/
theorem canon_slab_skip (x1 : Vec F S1x2048x512 .f32) (x6 : Vec F S8x64x512 .f32) (x7 : Vec F S8x64 .f32)
    (t : Fin 2048) (e : Fin 64) (h k : Fin 8) (hk : h ≠ k) (L : List (View.Piece (Elt F) S8x2048x64 .bf16)) :
    View.canon (slab x1 x6 x7 k :: L) (ix3 h t e) = View.canon L (ix3 h t e) :=
  View.canon_cons_of_not_mem (Val := Elt F) (slab x1 x6 x7 k) L
    (not_mem_slab k.val (slab_inb k) h t e (fun hv => hk (Fin.ext hv)))

/-- After the slab writes of any list of heads that names h, the contents at (h, t, e) are head h's projected keys
    at (t, e): slabs of other heads do not hold the index, and every write to slab h writes the same values. -/
theorem canon_slabs (x1 : Vec F S1x2048x512 .f32) (x6 : Vec F S8x64x512 .f32) (x7 : Vec F S8x64 .f32)
    (t : Fin 2048) (e : Fin 64) (h : Fin 8) : ∀ L : List (Fin 8), h ∈ L →
    View.canon (L.map (slab x1 x6 x7)) (ix3 h t e)
      = k0_pay8 (k0_pay3 x1) (wSlice x6 h) (bSlice x7 h) (ix3 (0 : Fin 1) t e)
  | [], hm => absurd hm List.not_mem_nil
  | k :: L, hm => by
    by_cases hk : h = k
    · subst hk
      exact canon_slab_hit x1 x6 x7 t e h _
    · have hL : h ∈ L := by
        rcases List.mem_cons.mp hm with rfl | hL
        · exact absurd rfl hk
        · exact hL
      exact (canon_slab_skip x1 x6 x7 t e h k hk _).trans (canon_slabs x1 x6 x7 t e h L hL)

/-- The eight slabs tile the key buffer along its first axis: at (h, t, e) the contents are the keys projected by
    head h, at (t, e). -/
theorem kPieces_apply (x1 : Vec F S1x2048x512 .f32) (x6 : Vec F S8x64x512 .f32) (x7 : Vec F S8x64 .f32)
    (h : Fin 8) (t : Fin 2048) (e : Fin 64) :
    View.canon (kPieces x1 x6 x7) (ix3 h t e)
      = k0_pay8 (k0_pay3 x1) (wSlice x6 h) (bSlice x7 h) (ix3 (0 : Fin 1) t e) :=
  canon_slabs x1 x6 x7 t e h [7, 6, 5, 4, 3, 2, 1, 0] (by revert h; decide)

/-! ## The two tiles -/

/-- The running sum of the heads' weights, at an entry: the sum over the heads. -/
theorem attnSum_apply (a : Fin 8 → FVec Ideal S256x2048 .f32) (i : S256x2048.Idx) :
    attnSum (F := Ideal) a i = ∑ h : Fin 8, a h i := by
  rw [Fin.sum_univ_eight]
  show Ideal.ofBits .f32 0x00000000#32 + a 0 i + a 1 i + a 2 i + a 3 i + a 4 i + a 5 i + a 6 i + a 7 i = _
  rw [Ideal.ofBits_zero_f32, zero_add]

/-- The tile of mean attention weights at (0, r, s): the heads' weights there, summed, times one eighth. -/
theorem tileW_apply (a : Fin 8 → FVec Ideal S256x2048 .f32) (r : Fin 256) (s : Fin 2048) :
    tileW (F := Ideal) a (ix3 (0 : Fin 1) r s) = (∑ h : Fin 8, a h (ix2 r s)) * Cert.Attn.eighth := by
  unfold tileW k0_pay1
  refine (shapeCast_ab_1ab_apply _ _ (0 : Fin 1) r s).trans ?_
  exact congrArg₂ (fun p q : EReal => p * q) (attnSum_apply a (ix2 r s)) Cert.Attn.ofBits_eighth

/-- One step of the running sum of weighted values, at (r, e): the sum so far plus row r of the weights against
    column e of the values. -/
theorem wvStep_apply (vv : Vec Ideal S2048x64 .bf16) (acc : FVec Ideal S256x64 .f32) (a : FVec Ideal S256x2048 .f32)
    (r : Fin 256) (e : Fin 64) :
    wvStep (F := Ideal) vv acc a (ix2 r e) = acc (ix2 r e) + ∑ t : Fin 2048, a (ix2 r t) * vv (ix2 t e) := by
  unfold wvStep
  exact congrArg (fun z : EReal => acc (ix2 r e) + z)
    (Cert.LibContractPlain.matmulPlain_zero_apply 256 2048 64 _ none _ vv r e)

/-- The running sum of weighted values over the eight heads, at (r, e). -/
theorem wvSum_apply (vv : Vec Ideal S2048x64 .bf16) (a : Fin 8 → FVec Ideal S256x2048 .f32) (r : Fin 256) (e : Fin 64) :
    wvSum (F := Ideal) vv a (ix2 r e) = ∑ h : Fin 8, ∑ t : Fin 2048, a h (ix2 r t) * vv (ix2 t e) := by
  have hz : k0_pay19 (F := Ideal) (ix2 r e) = 0 := Ideal.ofBits_zero_f32
  unfold wvSum
  rw [Fin.sum_univ_eight, wvStep_apply, wvStep_apply, wvStep_apply, wvStep_apply, wvStep_apply, wvStep_apply,
    wvStep_apply, wvStep_apply, hz, zero_add]

/-- The output tile at (0, r, j): the weighted values, summed over the heads, times one eighth, through the output
    projection. -/
theorem tileO_apply (vv : Vec Ideal S2048x64 .bf16) (a : Fin 8 → FVec Ideal S256x2048 .f32) (Wo : Vec Ideal S512x64 .f32)
    (bo : Vec Ideal S512 .f32) (r : Fin 256) (j : Fin 512) :
    tileO (F := Ideal) vv a Wo bo (ix3 (0 : Fin 1) r j)
      = (∑ e : Fin 64, ((∑ h : Fin 8, ∑ t : Fin 2048, a h (ix2 r t) * vv (ix2 t e)) * Cert.Attn.eighth) * Wo (ix2 j e))
        + bo (ix1 j) := by
  unfold tileO k0_pay2
  refine (shapeCast_ab_1ab_apply _ _ (0 : Fin 1) r j).trans ?_
  refine congrArg₂ (fun p q : EReal => p + q) ?_ ?_
  · refine (Cert.LibDenseT.matmulT_zero_apply 256 64 512 _ none _ Wo _ r j).trans ?_
    refine Finset.sum_congr rfl fun e _ => congrArg (fun z : EReal => z * Wo (ix2 j e)) ?_
    exact congrArg₂ (fun p q : EReal => p * q) (wvSum_apply vv a r e) Cert.Attn.ofBits_eighth
  · exact (Cert.LibDenseT.rowDown_apply _ _ r j).trans (shapeCast_a_1a_apply bo _ (0 : Fin 1) j)

end Cert.KernelIdeal.TileRead

end
-- ==== Proof.KPointSpec.lean ====
/-
  Every grid point of the attention kernel computes its tile of the specification.

  After any point of batch `b` the key scratch holds the projected keys of every head of that batch and the value scratch
  the projected values (the batch's first point computes them, the others keep them: induction on the point).  So head
  `h`'s weights for query row `r` of the tile are the specification's softmax weights of row `256·(t mod 8) + r` of the
  batch; their mean over the heads is the second result's tile.  For the first result the kernel adds up, head by head, the
  product of the head's weights with the projected values, where the specification multiplies the summed weights: the two
  agree because the weights are nonnegative (finite scores), and the extended reals distribute over sums of nonnegatives.
-/
import proofs.«150527_j89386859364957_1_alg».proof.Proof.KPoint
import proofs.«150527_j89386859364957_1_alg».proof.Proof.HeadRead
import proofs.«150527_j89386859364957_1_alg».proof.Proof.TileRead
import proofs.«150527_j89386859364957_1_alg».proof.Proof.BlocksToArrays
import proofs.«150527_j89386859364957_1_alg».proof.Proof.AttnLaws

set_option maxRecDepth 16384

noncomputable section

open scoped BigOperators

namespace Cert.KernelIdeal.PointSpec

open Cert.KernelIdeal Cert.KernelIdeal.Gen Cert.KernelIdeal.Tile Cert.KernelIdeal.Point Cert.KernelIdeal.Arrays
open Cert.KernelIdeal.HeadRead Cert.KernelIdeal.TileRead Cert.Attn Idealize.ShloMosaic Idealize.ShloMosaic.TcCoe Idealize.ShloMosaic.ValueIdx

variable (m : (ℓ : Loc nD τ sig) → Buf (Elt Ideal) ℓ) (c : Dev nD)

/-- What the first point of a batch stores in the key scratch, at `(h, s, e)`. -/
theorem scratchK_first_apply (t : Fin cfg0.N) (h0 : t.val % 8 = 0) (h : Fin 8) (s : Fin 2048) (e : Fin 64) :
    (outsAt0 m c t.val t.isLt).2.2.1 (ix3 h s e)
      = headProj (V m c main_arg1) (V m c main_arg6) (V m c main_arg7) (bOf t) h s e := by
  rw [scratchK_first m c t h0, kPieces_apply, pay8_apply]
  simp only [pay3_apply, wSlice_apply, bSlice_apply, iblk1_apply, iblk6_eq, iblk7_eq]
  rfl

/-- What the first point of a batch stores in the value scratch, at `(s, e)`. -/
theorem scratchV_first_apply (t : Fin cfg0.N) (h0 : t.val % 8 = 0) (s : Fin 2048) (e : Fin 64) :
    (outsAt0 m c t.val t.isLt).2.2.2 (ix2 s e)
      = valProj (V m c main_arg2) (V m c main_arg8) (V m c main_arg9) (bOf t) s e := by
  rw [scratchV_first m c t h0, pay4_apply]
  simp only [iblk2_apply, iblk8_eq, iblk9_eq]
  rfl

/-- After every point of batch `b` both scratch buffers hold that batch's projections. -/
theorem scratch_inv : ∀ (n : ℕ) (hn : n < cfg0.N),
    (∀ (h : Fin 8) (s : Fin 2048) (e : Fin 64), (outsAt0 m c n hn).2.2.1 (ix3 h s e)
        = headProj (V m c main_arg1) (V m c main_arg6) (V m c main_arg7) (bOf ⟨n, hn⟩) h s e)
    ∧ (∀ (s : Fin 2048) (e : Fin 64), (outsAt0 m c n hn).2.2.2 (ix2 s e)
        = valProj (V m c main_arg2) (V m c main_arg8) (V m c main_arg9) (bOf ⟨n, hn⟩) s e)
  | 0, hn => ⟨fun h s e => scratchK_first_apply m c ⟨0, hn⟩ (Nat.zero_mod _) h s e,
      fun s e => scratchV_first_apply m c ⟨0, hn⟩ (Nat.zero_mod _) s e⟩
  | n + 1, hn => by
    by_cases h0 : (n + 1) % 8 = 0
    · exact ⟨fun h s e => scratchK_first_apply m c ⟨n + 1, hn⟩ h0 h s e,
        fun s e => scratchV_first_apply m c ⟨n + 1, hn⟩ h0 s e⟩
    · have ih := scratch_inv n (Nat.lt_of_succ_lt hn)
      have hk := scratch_kept m c ⟨n + 1, hn⟩ h0
      have hb : bOf ⟨n + 1, hn⟩ = bOf ⟨n, Nat.lt_of_succ_lt hn⟩ := by
        apply Fin.ext; simp only [bOf_val]; omega
      refine ⟨fun h s e => ?_, fun s e => ?_⟩
      · rw [hb]; exact (congrFun hk.1 (ix3 h s e)).trans (ih.1 h s e)
      · rw [hb]; exact (congrFun hk.2 (ix2 s e)).trans (ih.2 s e)

/-- Head `h`'s weights at row `r` of the tile are the specification's weights of the batch's row `256·(t mod 8) + r`. -/
theorem head_apply (t : Fin cfg0.N) (h : Fin 8) (r : Fin 256) (s : Fin 2048) :
    heads (k0_pay16 (iblk m c 0 t)) (k0_pay17 (iblk m c 3 t)) (wSlice (iblk m c 4 t)) (bSlice (iblk m c 5 t))
        (kSlice (outsAt0 m c t.val t.isLt).2.2.1) h (ix2 r s)
      = attn (V m c main_arg0) (V m c main_arg1) (V m c main_arg3) (V m c main_arg4) (V m c main_arg5) (V m c main_arg6)
          (V m c main_arg7) (bOf t) h (rowOf t r) s := by
  unfold heads
  rw [pay24_apply]
  unfold attn score
  refine congrArg (fun f => softmax f s) (funext fun t' => ?_)
  simp only [pay16_apply, pay17_apply, wSlice_apply, bSlice_apply, kSlice_apply, iblk0_apply, iblk3_apply, iblk4_eq, iblk5_eq,
    (scratch_inv m c t.val t.isLt).1]
  rfl

variable (h0 : ∀ i, IsReal ((V m c main_arg0 : S4x2048x512.Idx → EReal) i)) (h1 : ∀ i, IsReal ((V m c main_arg1 : S4x2048x512.Idx → EReal) i))
  (h4 : ∀ i, IsReal ((V m c main_arg4 : S8x64x512.Idx → EReal) i)) (h5 : ∀ i, IsReal ((V m c main_arg5 : S8x64.Idx → EReal) i))
  (h6 : ∀ i, IsReal ((V m c main_arg6 : S8x64x512.Idx → EReal) i)) (h7 : ∀ i, IsReal ((V m c main_arg7 : S8x64.Idx → EReal) i))

include h0 h1 h4 h5 h6 h7 in
/-- THE SECOND RESULT's tile: the mean over the heads of the specification's weights. -/
theorem point13 (t : Fin cfg0.N) (r : Fin 256) (s : Fin 2048) :
    (outsAt0 m c t.val t.isLt).2.1 (ix3 (0 : Fin 1) r s)
      = Cert.Attn.attnMean (V m c main_arg0) (V m c main_arg1) (V m c main_arg3) (V m c main_arg4) (V m c main_arg5) (V m c main_arg6)
          (V m c main_arg7) (ix3 (bOf t) (rowOf t r) s) := by
  rw [tile13 m c t, tileW_apply]
  simp only [head_apply]
  rfl

include h0 h1 h4 h5 h6 h7 in
/-- THE FIRST RESULT's tile: the kernel's head-by-head sum of weighted values is the specification's product of the
    summed weights with the values, the weights being nonnegative. -/
theorem point12 (t : Fin cfg0.N) (r : Fin 256) (j : Fin 512) :
    (outsAt0 m c t.val t.isLt).1 (ix3 (0 : Fin 1) r j)
      = Cert.Attn.outProj (V m c main_arg0) (V m c main_arg1) (V m c main_arg2) (V m c main_arg3) (V m c main_arg4) (V m c main_arg5)
          (V m c main_arg6) (V m c main_arg7) (V m c main_arg8) (V m c main_arg9) (V m c main_arg10) (V m c main_arg11)
          (ix3 (bOf t) (rowOf t r) j) := by
  rw [tile12 m c t, tileO_apply]
  simp only [head_apply, (scratch_inv m c t.val t.isLt).2, iblk10_eq, iblk11_eq]
  unfold outProj mixed
  refine congrArg (· + _) (Finset.sum_congr rfl fun e _ => congrArg (· * _) (congrArg (· * eighth) ?_))
  exact sum_heads_mul _ _ fun h u => attn_nonneg _ _ _ _ _ _ _ h0 h1 h4 h5 h6 h7 (bOf t) h (rowOf t r) u

end Cert.KernelIdeal.PointSpec

end
-- ==== Proof.lean ====
/-
  The certificate's claim: the kernel and the reference compute the same multi-head attention layer.

  Read over the extended reals, both programs end with the two results of the specification (Proof/AttnSpec.lean): the
  output projection of the head-averaged weighted values, and the attention weights averaged over the eight heads.
  The reference is the specification stage by stage (Proof/RefIsSpec.lean). The kernel works one tile of 256 query rows
  of one batch at a time: what a grid point leaves in its two output blocks is the specification at the rows the point
  covers (Proof/KPointSpec.lean), and the blocks tile the two result arrays (Proof/BlocksToArrays.lean). Three laws carry
  the comparison. The sum over the heads moves across the product with the values, because softmax weights of finite
  scores are nonnegative and the extended reals distribute over terms of one sign. The precondition's finite inputs
  make every projected entry and every score a real number (Proof/FiniteInputs.lean). The kernel's scale by 1/8 is the
  reference's division by 8. Each program also runs and leaves its twelve arguments unchanged, and the kernel read
  over the extended reals is the kernel's own text: no operation was rewritten.
-/
import proofs.«150527_j89386859364957_1_alg».proof.Defs
import proofs.«150527_j89386859364957_1_alg».proof.Proof.Gen.Kernel
import proofs.«150527_j89386859364957_1_alg».proof.Proof.Gen.Kernel.Skeleton
import proofs.«150527_j89386859364957_1_alg».proof.Proof.Gen.Kernel.Launch
import proofs.«150527_j89386859364957_1_alg».proof.Proof.Gen.Kernel.Points
import proofs.«150527_j89386859364957_1_alg».proof.Proof.Gen.Kernel.Frame
import proofs.«150527_j89386859364957_1_alg».proof.Proof.Gen.KernelIdeal
import proofs.«150527_j89386859364957_1_alg».proof.Proof.Gen.KernelIdeal.Skeleton
import proofs.«150527_j89386859364957_1_alg».proof.Proof.Gen.KernelIdeal.Launch
import proofs.«150527_j89386859364957_1_alg».proof.Proof.Gen.KernelIdeal.Points
import proofs.«150527_j89386859364957_1_alg».proof.Proof.Gen.KernelIdeal.Frame
import proofs.«150527_j89386859364957_1_alg».proof.Proof.Gen.ReferenceIdeal
import proofs.«150527_j89386859364957_1_alg».proof.Proof.Gen.Pre_finite_inputs
import proofs.«150527_j89386859364957_1_alg».proof.Proof.Gen.KernelIdeal.Value
import proofs.«150527_j89386859364957_1_alg».proof.Proof.Gen.ReferenceIdeal.Run
import proofs.«150527_j89386859364957_1_alg».proof.Proof.Gen.ReferenceIdeal.Read
import proofs.«150527_j89386859364957_1_alg».proof.Proof.AttnSpec
import proofs.«150527_j89386859364957_1_alg».proof.Proof.FiniteInputs
import proofs.«150527_j89386859364957_1_alg».proof.Proof.RefIsSpec
import proofs.«150527_j89386859364957_1_alg».proof.Proof.BlocksToArrays
import proofs.«150527_j89386859364957_1_alg».proof.Proof.KPointSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The kernel read over the extended reals runs and leaves its arguments unchanged. -/
theorem frame_kernelIdeal : Cert.frame_KernelIdeal := fun m ρ _ => Cert.KernelIdeal.Gen.frame m ρ

/-- The reference runs and leaves its arguments unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten: the kernel over the extended reals is the kernel's own text. -/
theorem preserves : Cert.preserves_Kernel_KernelIdeal := trivial

/-- Over the extended reals, from memories that agree on the twelve arguments and whose float entries are finite, the
    kernel and the reference end with the same two results: the output projection of the head-averaged weighted values,
    and the attention weights averaged over the heads. -/
theorem algebraic : Cert.algebraic_KernelIdeal_ReferenceIdeal := by
  intro m ρ m' ρ' hpre hagree
  have hreal := fun c : Dev Cert.KernelIdeal.nD => Cert.Attn.Finite.real_of_finite_inputs _ _ _ _ _ _ _ _ _ _ _ _ (hpre c)
  refine ⟨fun c => Cert.Attn.outProj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Attn.attnMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact Cert.KernelIdeal.Arrays.run_spec m ρ _ _
      (fun c t r j => Cert.KernelIdeal.PointSpec.point12 m c (hreal c).1 (hreal c).2.1 (hreal c).2.2.1 (hreal c).2.2.2.1
        (hreal c).2.2.2.2.1 (hreal c).2.2.2.2.2 t r j)
      (fun c t r s => Cert.KernelIdeal.PointSpec.point13 m c (hreal c).1 (hreal c).2.1 (hreal c).2.2.1 (hreal c).2.2.2.1
        (hreal c).2.2.2.2.1 (hreal c).2.2.2.2.2 t r s)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9, a10, a11⟩ := hagree c
      rw [Cert.ReferenceIdeal.Read.val_main_v39_eq, Cert.ReferenceIdeal.RefValue.ref_out,
        a0, a1, a2, a3, a4, a5, a6, a7, a8, a9, a10, a11]
    · obtain ⟨a0, a1, -, a3, a4, a5, a6, a7, -⟩ := hagree c
      rw [Cert.ReferenceIdeal.Read.val_main_v42_eq, Cert.ReferenceIdeal.RefValue.ref_weights,
        a0, a1, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
